-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x3 : Shape := ⟨2, ![8192, 3]⟩
abbrev S_ : Shape := ⟨0, ![]⟩

class Facts : Prop where
  bcast_S_S8192x3 : S_.BroadcastsInDim S8192x3 (![] : Fin 0 → Fin S8192x3.rank)
  reducesTo_S8192x3_S_d0_1 : S8192x3.ReducesTo [0, 1] S_
  h_S_ : 0 < S_.numel

variable [Facts]

def fn {F : FTy → Type} [FloatOps F] (main_arg0 : FVec F S8192x3 .f32) (main_arg1 : FVec F S8192x3 .f32) : IVec S_ 1 :=
  let main_v0 : FVec F S8192x3 .f32 := Host.absf main_arg0
  let main_cst : FVec F S_ .f32 := constant S_ .f32 0x7F800000#32
  let main_v1 : FVec F S8192x3 .f32 := broadcastInDim S8192x3 ![] bcast_S_S8192x3 main_cst
  let main_v2 : IVec S8192x3 1 := cmpf .olt main_v0 main_v1
  let main_c : IVec S_ 1 := constantI S_ 1 1#1
  let main_v3 : IVec S_ 1 := (fun x v => Host.reduce IntOp.andi x v reducesTo_S8192x3_S_d0_1 h_S_) main_v2 main_c
  let main_v4 : FVec F S8192x3 .f32 := Host.absf main_arg1
  let main_cst_0 : FVec F S_ .f32 := constant S_ .f32 0x7F800000#32
  let main_v5 : FVec F S8192x3 .f32 := broadcastInDim S8192x3 ![] bcast_S_S8192x3 main_cst_0
  let main_v6 : IVec S8192x3 1 := cmpf .olt main_v4 main_v5
  let main_c_1 : IVec S_ 1 := constantI S_ 1 1#1
  let main_v7 : IVec S_ 1 := (fun x v => Host.reduce IntOp.andi x v reducesTo_S8192x3_S_d0_1 h_S_) main_v6 main_c_1
  let main_v8 : IVec S_ 1 := andi main_v3 main_v7
  main_v8
-- ==== Kernel.lean ====
abbrev S8192x3 : Shape := ⟨2, ![8192, 3]⟩
abbrev S3x8192 : Shape := ⟨2, ![3, 8192]⟩
abbrev S1x1 : Shape := ⟨2, ![1, 1]⟩
abbrev S1024x3 : Shape := ⟨2, ![1024, 3]⟩
abbrev S1024x1 : Shape := ⟨2, ![1024, 1]⟩
abbrev S1x8192 : Shape := ⟨2, ![1, 8192]⟩
abbrev S1024 : Shape := ⟨1, ![1024]⟩
abbrev S8192 : Shape := ⟨1, ![8192]⟩
abbrev S1024x8192 : Shape := ⟨2, ![1024, 8192]⟩
abbrev S1x1024x1 : Shape := ⟨3, ![1, 1024, 1]⟩
abbrev S1 : Shape := ⟨1, ![1]⟩
abbrev S1x1x1 : Shape := ⟨3, ![1, 1, 1]⟩
abbrev S1x1x8192 : Shape := ⟨3, ![1, 1, 8192]⟩
abbrev S_ : Shape := ⟨0, ![]⟩

abbrev nBuf : Space → Nat
  | .hbm => 5
  | .vmem => 6
  | .smem => 0
  | _ => 0

abbrev bufTy : (tb : Table) → Fin (tcTables nBuf tb) → BufTy
  | .hbm, ⟨0, _⟩ => ⟨S8192x3, .f32⟩
  | .hbm, ⟨1, _⟩ => ⟨S8192x3, .f32⟩
  | .hbm, ⟨2, _⟩ => ⟨S3x8192, .f32⟩
  | .hbm, ⟨3, _⟩ => ⟨S1x1, .f32⟩
  | .hbm, ⟨4, _⟩ => ⟨S_, .f32⟩
  | .local _ .vmem, ⟨0, _⟩ => ⟨S1024x3, .f32⟩
  | .local _ .vmem, ⟨1, _⟩ => ⟨S1024x3, .f32⟩
  | .local _ .vmem, ⟨2, _⟩ => ⟨S3x8192, .f32⟩
  | .local _ .vmem, ⟨3, _⟩ => ⟨S1x1, .f32⟩
  | .local _ .vmem, ⟨4, _⟩ => ⟨S1024x1, .f32⟩
  | .local _ .vmem, ⟨5, _⟩ => ⟨S1x8192, .f32⟩
  | _, _ => ⟨S8192x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_scratch0 : Ref sig .tc := ⟨.vmem, 4, rfl⟩
abbrev cc0_scratch1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3

abbrev nD : Nat := 1
abbrev τ : Topo := Topo.v7x

variable {F : FTy → Type} [FloatOps F]

abbrev grid0 : Pipeline.Grid := ⟨1, ![8], ![false]⟩

def k0_cond5 (i : grid0.Coords) : BitVec 1 :=
  let arg0 : BitVec 32 := BitVec.ofNat 32 (i 0).val
  let c7_i32 : BitVec 32 := 7#32
  let v37 : BitVec 1 := Scalar.cmpi .eq arg0 c7_i32
  let v38 : BitVec 32 := Scalar.extui v37
  let c0_i32_16 : BitVec 32 := 0#32
  let v39 : BitVec 1 := Scalar.cmpi .ne v38 c0_i32_16
  v39

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  transposes_S8192x3_S3x8192_1_0 : S8192x3.Transposes [1, 0] S3x8192
  inb_S1024x3_S1024x3_0_0 : ∀ a, (![0, 0] : Fin 2 → Nat) a + S1024x3.size a ≤ S1024x3.size a
  h_S1024x3 : 0 < S1024x3.numel
  reduces_S1024x3_S1024 : S1024x3.Reduces [1] S1024
  shapeCasts_S1024_S1024x1 : S1024.ShapeCasts S1024x1
  inb_S3x8192_S3x8192_0_0 : ∀ a, (![0, 0] : Fin 2 → Nat) a + S3x8192.size a ≤ S3x8192.size a
  h_S3x8192 : 0 < S3x8192.numel
  shapeCasts_S3x8192_S3x8192 : S3x8192.ShapeCasts S3x8192
  reduces_S3x8192_S8192 : S3x8192.Reduces [0] S8192
  shapeCasts_S8192_S1x8192 : S8192.ShapeCasts S1x8192
  broadcasts_S1x8192_S1024x8192 : S1x8192.Broadcasts S1024x8192
  broadcasts_S1024x1_S1024x8192 : S1024x1.Broadcasts S1024x8192
  reduces_S1024x8192_S1024 : S1024x8192.Reduces [1] S1024
  reduces_S1024x8192_S8192 : S1024x8192.Reduces [0] S8192
  inb_S1x8192_S1x8192_0_0 : ∀ a, (![0, 0] : Fin 2 → Nat) a + S1x8192.size a ≤ S1x8192.size a
  h_S1x8192 : 0 < S1x8192.numel
  shapeCasts_S1x8192_S1x8192 : S1x8192.ShapeCasts S1x8192
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  shapeCasts_S1024x1_S1x1024x1 : S1024x1.ShapeCasts S1x1024x1
  reduces_S1x1024x1_S1 : S1x1024x1.Reduces [1, 2] S1
  shapeCasts_S1_S1x1x1 : S1.ShapeCasts S1x1x1
  inpos_S1x1x1_p0_0_0 : ∀ a, (![0, 0, 0] : Fin 3 → Nat) a < S1x1x1.size a
  shapeCasts_S1x8192_S1x1x8192 : S1x8192.ShapeCasts S1x1x8192
  reduces_S1x1x8192_S1 : S1x1x8192.Reduces [1, 2] S1
  inb_S1x1_S1x1_0_0 : ∀ a, (![0, 0] : Fin 2 → Nat) a + S1x1.size a ≤ S1x1.size a
  h_S1x1 : 0 < S1x1.numel
  shapeCasts_S1x1_S_ : S1x1.ShapeCasts S_
  dot_S1024x3_S3x8192_S1024x8192_1_0_0_1_n_n_wf : DotDims.WF S1024x3 S3x8192 S1024x8192 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x3.size a ≤ S8192x3.size a
  hwx0_0 : ∀ i : grid0.Coords, EltTy.bits .f32 = 32 ∨ (Rect.block (s := S8192x3) S1024x3.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3x8192.size a ≤ S3x8192.size a
  hwx0_1 : ∀ i : grid0.Coords, EltTy.bits .f32 = 32 ∨ (Rect.block (s := S3x8192) S3x8192.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)

variable [Facts₀]

def dot_S1024x3_S3x8192_S1024x8192_1_0_0_1_n_n : DotDims S1024x3 S3x8192 S1024x8192 where
  lhsContracting := [1]
  rhsContracting := [0]
  lhsNonContracting := [0]
  rhsNonContracting := [1]
  lhsBatch := []
  rhsBatch := []
  wf := dot_S1024x3_S3x8192_S1024x8192_1_0_0_1_n_n_wf

abbrev win0_0 : Pipeline.Window sig grid0 :=
  Pipeline.Window.ofSpec (Memref.whole main_arg1) S1024x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S3x8192.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond5 i == 1#1) | ⟨_ + 3, h⟩ => absurd h (Nat.not_lt.2 (Nat.le_add_left _ _))

class Facts : Prop extends Facts₀ where

variable [Facts]
-- ==== ReferenceIdeal.lean ====
abbrev S8192x3 : Shape := ⟨2, ![8192, 3]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S3x8192 : Shape := ⟨2, ![3, 8192]⟩

abbrev nBuf : Space → Nat
  | .hbm => 55
  | .vmem => 0
  | .smem => 0
  | _ => 0

abbrev bufTy : (tb : Table) → Fin (tcTables nBuf tb) → BufTy
  | .hbm, ⟨0, _⟩ => ⟨S8192x3, .f32⟩
  | .hbm, ⟨1, _⟩ => ⟨S8192x3, .f32⟩
  | .hbm, ⟨2, _⟩ => ⟨S8192x3, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S8192x3, .f32⟩
  | .hbm, ⟨7, _⟩ => ⟨S_, .f32⟩
  | .hbm, ⟨8, _⟩ => ⟨S8192, .f32⟩
  | .hbm, ⟨9, _⟩ => ⟨S1x8192, .f32⟩
  | .hbm, ⟨10, _⟩ => ⟨S8192x8192, .f32⟩
  | .hbm, ⟨11, _⟩ => ⟨S8192x8192, .f32⟩
  | .hbm, ⟨12, _⟩ => ⟨S8192x8192, .f32⟩
  | .hbm, ⟨13, _⟩ => ⟨S3x8192, .f32⟩
  | .hbm, ⟨14, _⟩ => ⟨S8192x8192, .f32⟩
  | .hbm, ⟨15, _⟩ => ⟨S_, .f32⟩
  | .hbm, ⟨16, _⟩ => ⟨S8192x8192, .f32⟩
  | .hbm, ⟨17, _⟩ => ⟨S8192x8192, .f32⟩
  | .hbm, ⟨18, _⟩ => ⟨S8192x8192, .f32⟩
  | .hbm, ⟨19, _⟩ => ⟨S_, .f32⟩
  | .hbm, ⟨20, _⟩ => ⟨S8192x8192, .f32⟩
  | .hbm, ⟨21, _⟩ => ⟨S8192x8192, .f32⟩
  | .hbm, ⟨22, _⟩ => ⟨S_, .f32⟩
  | .hbm, ⟨23, _⟩ => ⟨S8192, .f32⟩
  | .hbm, ⟨24, _⟩ => ⟨S8192, .f32⟩
  | .hbm, ⟨25, _⟩ => ⟨S8192x3, .f32⟩
  | .hbm, ⟨26, _⟩ => ⟨S_, .f32⟩
  | .hbm, ⟨27, _⟩ => ⟨S8192, .f32⟩
  | .hbm, ⟨28, _⟩ => ⟨S8192x1, .f32⟩
  | .hbm, ⟨29, _⟩ => ⟨S8192x3, .f32⟩
  | .hbm, ⟨30, _⟩ => ⟨S_, .f32⟩
  | .hbm, ⟨31, _⟩ => ⟨S8192, .f32⟩
  | .hbm, ⟨32, _⟩ => ⟨S1x8192, .f32⟩
  | .hbm, ⟨33, _⟩ => ⟨S8192x8192, .f32⟩
  | .hbm, ⟨34, _⟩ => ⟨S8192x8192, .f32⟩
  | .hbm, ⟨35, _⟩ => ⟨S8192x8192, .f32⟩
  | .hbm, ⟨36, _⟩ => ⟨S3x8192, .f32⟩
  | .hbm, ⟨37, _⟩ => ⟨S8192x8192, .f32⟩
  | .hbm, ⟨38, _⟩ => ⟨S_, .f32⟩
  | .hbm, ⟨39, _⟩ => ⟨S8192x8192, .f32⟩
  | .hbm, ⟨40, _⟩ => ⟨S8192x8192, .f32⟩
  | .hbm, ⟨41, _⟩ => ⟨S8192x8192, .f32⟩
  | .hbm, ⟨42, _⟩ => ⟨S_, .f32⟩
  | .hbm, ⟨43, _⟩ => ⟨S8192x8192, .f32⟩
  | .hbm, ⟨44, _⟩ => ⟨S8192x8192, .f32⟩
  | .hbm, ⟨45, _⟩ => ⟨S_, .f32⟩
  | .hbm, ⟨46, _⟩ => ⟨S8192, .f32⟩
  | .hbm, ⟨47, _⟩ => ⟨S8192, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | _, _ => ⟨S8192x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_4 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_5 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_6 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst_7 : Ref sig .tc := ⟨.hbm, 42, rfl⟩
abbrev main_v32 : Ref sig .tc := ⟨.hbm, 43, rfl⟩
abbrev main_v33 : Ref sig .tc := ⟨.hbm, 44, rfl⟩
abbrev main_cst_8 : Ref sig .tc := ⟨.hbm, 45, rfl⟩
abbrev main_v34 : Ref sig .tc := ⟨.hbm, 46, rfl⟩
abbrev main_v35 : Ref sig .tc := ⟨.hbm, 47, rfl⟩
abbrev main_cst_9 : Ref sig .tc := ⟨.hbm, 48, rfl⟩
abbrev main_v36 : Ref sig .tc := ⟨.hbm, 49, rfl⟩
abbrev main_cst_10 : Ref sig .tc := ⟨.hbm, 50, rfl⟩
abbrev main_v37 : Ref sig .tc := ⟨.hbm, 51, rfl⟩
abbrev main_v38 : Ref sig .tc := ⟨.hbm, 52, rfl⟩
abbrev main_cst_11 : Ref sig .tc := ⟨.hbm, 53, rfl⟩
abbrev main_v39 : Ref sig .tc := ⟨.hbm, 54, rfl⟩

abbrev nD : Nat := 1
abbrev τ : Topo := Topo.v7x

variable {F : FTy → Type} [FloatOps F]

class Facts₀ : Prop where
  reducesTo_S8192x3_S8192_d1 : S8192x3.ReducesTo [1] S8192
  h_S_ : 0 < S_.numel
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  transposes_S8192x3_S3x8192_1_0 : S8192x3.Transposes [1, 0] S3x8192
  bcast_S_S8192x8192 : S_.BroadcastsInDim S8192x8192 (![] : Fin 0 → Fin S8192x8192.rank)
  reducesTo_S8192x8192_S8192_d1 : S8192x8192.ReducesTo [1] S8192
  reducesTo_S8192_S_d0 : S8192.ReducesTo [0] S_
  dot_S8192x3_S3x8192_S8192x8192_1_0_0_1_n_n_wf : DotDims.WF S8192x3 S3x8192 S8192x8192 [1] [0] [0] [1] [] []

variable [Facts₀]

def dot_S8192x3_S3x8192_S8192x8192_1_0_0_1_n_n : DotDims S8192x3 S3x8192 S8192x8192 where
  lhsContracting := [1]
  rhsContracting := [0]
  lhsNonContracting := [0]
  rhsNonContracting := [1]
  lhsBatch := []
  rhsBatch := []
  wf := dot_S8192x3_S3x8192_S8192x8192_1_0_0_1_n_n_wf

class Facts : Prop extends Facts₀ where

variable [Facts]
-- ==== Proof.Pieces.lean ====
/-
  What one run of the kernel body leaves behind, as values. The body keeps two buffers between grid positions:
  1024 running sums of nearest distances (one per row of a tile) and 8192 running minima (one per point of the
  second cloud). At the first position both are written afresh from the tile; at every later position each is
  combined with what the position before left; at the last position the result block is formed from the two
  buffers AS JUST UPDATED. Each statement below says that the contents the body's stores leave are the body's
  arithmetic (its named pure terms) of the tile, the second cloud and the carried contents; nothing is computed here.
-/
import proofs.«152558_g26491358282344_cont_9to1_1100_13_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

variable (c : Dev nD) (i : grid0.Coords) (arg1 : Memref sig .tc .vmem S1024x3 .f32) (harg1 : arg1.IsWhole) (arg2 : Memref sig .tc .vmem S3x8192 .f32) (harg2 : arg2.IsWhole) (arg3 : Memref sig .tc .vmem S1x1 .f32) (harg3 : arg3.IsWhole) (arg4 : Memref sig .tc .vmem S1024x1 .f32) (harg4 : arg4.IsWhole) (arg5 : Memref sig .tc .vmem S1x8192 .f32) (harg5 : arg5.IsWhole)

/-! ## The first grid position: both carried buffers are written afresh -/
section A
variable (hc0 : cond0_0 i) (hc1 : ¬cond0_1 i) (hc2 : cond0_2 i) (hc3 : ¬cond0_3 i) (hc4 : ¬cond0_4 i) (x0 : Vec F S1024x3 .f32) (x1 : Vec F S3x8192 .f32)

/-- The running sums start at the tile's nearest distances. -/
theorem first_sums : sout0_A_0 c i arg1 harg1 arg2 harg2 arg3 harg3 arg4 harg4 arg5 harg5 hc0 hc1 hc2 hc3 hc4 x0 x1 = k0_pay11 x0 x1 := by
  unfold sout0_A_0
  rw [View.read_writes_eq_canon _ _ _ (scover0_A_0 c i arg1 harg1 arg2 harg2 arg3 harg3 arg4 harg4 arg5 harg5 hc0 hc1 hc2 hc3 hc4 x0 x1)]
  unfold kernelRun0_A
  dsimp only
  sl_unfold_words
  rw [View.canon_unit_zero hz]
  simp only [View.readAt_eq_ld, harg1.read_unread, harg2.read_unread, View.ld_unit_zero (S := S1024x3) hz, View.ld_unit_zero (S := S3x8192) hz]

/-- The running minima start at the tile's candidates. -/
theorem first_mins : sout0_A_1 c i arg1 harg1 arg2 harg2 arg3 harg3 arg4 harg4 arg5 harg5 hc0 hc1 hc2 hc3 hc4 x0 x1 = k0_pay8 x0 x1 := by
  unfold sout0_A_1
  rw [View.read_writes_eq_canon _ _ _ (scover0_A_1 c i arg1 harg1 arg2 harg2 arg3 harg3 arg4 harg4 arg5 harg5 hc0 hc1 hc2 hc3 hc4 x0 x1)]
  unfold kernelRun0_A
  dsimp only
  sl_unfold_words
  rw [View.canon_unit_zero hz]
  simp only [View.readAt_eq_ld, harg1.read_unread, harg2.read_unread, View.ld_unit_zero (S := S1024x3) hz, View.ld_unit_zero (S := S3x8192) hz]
end A

/-! ## A middle grid position: both carried buffers are updated from what the position before left -/
section B
variable (hc0 : ¬cond0_0 i) (hc1 : cond0_1 i) (hc2 : ¬cond0_2 i) (hc3 : cond0_3 i) (hc4 : ¬cond0_4 i) (x0 : Vec F S1024x3 .f32) (x1 : Vec F S3x8192 .f32) (xs0 : Vec F S1024x1 .f32) (xs1 : Vec F S1x8192 .f32)

/-- The tile's nearest distances are added to the running sums. -/
theorem next_sums : sout0_B_0 c i arg1 harg1 arg2 harg2 arg3 harg3 arg4 harg4 arg5 harg5 hc0 hc1 hc2 hc3 hc4 x0 x1 xs0 xs1 = k0_pay1 (k0_pay10 x0 x1) xs0 := by
  unfold sout0_B_0
  rw [View.read_writes_eq_canon _ _ _ (scover0_B_0 c i arg1 harg1 arg2 harg2 arg3 harg3 arg4 harg4 arg5 harg5 hc0 hc1 hc2 hc3 hc4 x0 x1 xs0 xs1)]
  unfold kernelRun0_B
  dsimp only
  sl_unfold_words
  rw [View.canon_unit_zero hz]
  simp only [View.readAt_eq_ld, harg1.read_unread, harg2.read_unread, harg4.read_unread, View.ld_unit_zero (S := S1024x3) hz, View.ld_unit_zero (S := S3x8192) hz, View.ld_unit_zero (S := S1024x1) hz]

/-- The running minima meet the tile's candidates. -/
theorem next_mins : sout0_B_1 c i arg1 harg1 arg2 harg2 arg3 harg3 arg4 harg4 arg5 harg5 hc0 hc1 hc2 hc3 hc4 x0 x1 xs0 xs1 = k0_pay9 x0 x1 xs1 := by
  unfold sout0_B_1
  rw [View.read_writes_eq_canon _ _ _ (scover0_B_1 c i arg1 harg1 arg2 harg2 arg3 harg3 arg4 harg4 arg5 harg5 hc0 hc1 hc2 hc3 hc4 x0 x1 xs0 xs1)]
  unfold kernelRun0_B
  dsimp only
  sl_unfold_words
  rw [View.canon_unit_zero hz]
  simp only [View.readAt_eq_ld, harg1.read_unread, harg2.read_unread, harg5.read_unread, View.ld_unit_zero (S := S1024x3) hz, View.ld_unit_zero (S := S3x8192) hz, View.ld_unit_zero (S := S1x8192) hz]
end B

/-! ## The last grid position: the same updates, and the result formed from the updated buffers -/
section C
variable (hc0 : ¬cond0_0 i) (hc1 : cond0_1 i) (hc2 : ¬cond0_2 i) (hc3 : cond0_3 i) (hc4 : cond0_4 i) (x0 : Vec F S1024x3 .f32) (x1 : Vec F S3x8192 .f32) (xs0 : Vec F S1024x1 .f32) (xs1 : Vec F S1x8192 .f32)

theorem last_sums : sout0_C_0 c i arg1 harg1 arg2 harg2 arg3 harg3 arg4 harg4 arg5 harg5 hc0 hc1 hc2 hc3 hc4 x0 x1 xs0 xs1 = k0_pay1 (k0_pay10 x0 x1) xs0 := by
  unfold sout0_C_0
  rw [View.read_writes_eq_canon _ _ _ (scover0_C_0 c i arg1 harg1 arg2 harg2 arg3 harg3 arg4 harg4 arg5 harg5 hc0 hc1 hc2 hc3 hc4 x0 x1 xs0 xs1)]
  unfold kernelRun0_C
  dsimp only
  sl_unfold_words
  rw [View.canon_unit_zero hz]
  simp only [View.readAt_eq_ld, harg1.read_unread, harg2.read_unread, harg4.read_unread, View.ld_unit_zero (S := S1024x3) hz, View.ld_unit_zero (S := S3x8192) hz, View.ld_unit_zero (S := S1024x1) hz]

theorem last_mins : sout0_C_1 c i arg1 harg1 arg2 harg2 arg3 harg3 arg4 harg4 arg5 harg5 hc0 hc1 hc2 hc3 hc4 x0 x1 xs0 xs1 = k0_pay9 x0 x1 xs1 := by
  unfold sout0_C_1
  rw [View.read_writes_eq_canon _ _ _ (scover0_C_1 c i arg1 harg1 arg2 harg2 arg3 harg3 arg4 harg4 arg5 harg5 hc0 hc1 hc2 hc3 hc4 x0 x1 xs0 xs1)]
  unfold kernelRun0_C
  dsimp only
  sl_unfold_words
  rw [View.canon_unit_zero hz]
  simp only [View.readAt_eq_ld, harg1.read_unread, harg2.read_unread, harg5.read_unread, View.ld_unit_zero (S := S1024x3) hz, View.ld_unit_zero (S := S3x8192) hz, View.ld_unit_zero (S := S1x8192) hz]

/-- The result block: the two totals of the UPDATED running minima and running sums, added and divided. -/
theorem last_result : out0_C_2 c i arg1 harg1 arg2 harg2 arg3 harg3 arg4 harg4 arg5 harg5 hc0 hc1 hc2 hc3 hc4 x0 x1 xs0 xs1 = k0_pay2 (k0_pay9 x0 x1 xs1) (k0_pay1 (k0_pay10 x0 x1) xs0) := by
  unfold out0_C_2
  rw [View.read_writes_eq_canon _ _ _ (cover0_C_2 c i arg1 harg1 arg2 harg2 arg3 harg3 arg4 harg4 arg5 harg5 hc0 hc1 hc2 hc3 hc4 x0 x1 xs0 xs1)]
  unfold kernelRun0_C
  dsimp only
  sl_unfold_words
  rw [View.canon_unit_zero hz, View.readCov_unit_zero (S := S1x8192) _ hz, View.readCov_unit_zero (S := S1024x1) _ hz]
  simp only [View.readAt_eq_ld, harg1.read_unread, harg2.read_unread, harg4.read_unread, harg5.read_unread, View.ld_unit_zero (S := S1024x3) hz, View.ld_unit_zero (S := S3x8192) hz, View.ld_unit_zero (S := S1024x1) hz, View.ld_unit_zero (S := S1x8192) hz]
end C

end Cert.KernelIdeal.Pieces
end
-- ==== Proof.Scan.lean ====
/-
  The two carried buffers after every grid position, in closed form. After the first position the running sums
  are the first tile's nearest distances and the running minima its candidates; after position n + 1 each is the
  body's update of what position n left, with tile n + 1. By induction on the position (never by enumerating the
  grid) this is what the frame run's own bookkeeping of the buffers holds; and the one block the region writes
  back, at the last position, is the result formed from the buffers after that position.
-/
import proofs.«152558_g26491358282344_cont_9to1_1100_13_alg».proof.Proof.Pieces

set_option maxRecDepth 16384

noncomputable section

open Idealize.ShloMosaic Idealize.ShloMosaic.TcCoe Idealize.SL.Sem
open Idealize.ShloMosaic.Pipeline (Dat)

namespace Cert.KernelIdeal.Scan

open Cert.KernelIdeal Cert.KernelIdeal.Gen

variable {F : FTy → Type} [FloatOps F]
variable (m : (ℓ : Loc nD τ sig) → Buf (Elt F) ℓ) (ρ : Dev nD → PrngReg)

/-- The running sums after position `n`. -/
def sums (c : Dev nD) : (n : ℕ) → n < cfg0.N → Vec F S1024x1 .f32
  | 0, h => k0_pay11 (iblk m c 0 ⟨0, h⟩) (iblk m c 1 ⟨0, h⟩)
  | n + 1, h => k0_pay1 (k0_pay10 (iblk m c 0 ⟨n + 1, h⟩) (iblk m c 1 ⟨n + 1, h⟩)) (sums c n (Nat.lt_of_succ_lt h))

/-- The running minima after position `n`. -/
def mins (c : Dev nD) : (n : ℕ) → n < cfg0.N → Vec F S1x8192 .f32
  | 0, h => k0_pay8 (iblk m c 0 ⟨0, h⟩) (iblk m c 1 ⟨0, h⟩)
  | n + 1, h => k0_pay9 (iblk m c 0 ⟨n + 1, h⟩) (iblk m c 1 ⟨n + 1, h⟩) (mins c n (Nat.lt_of_succ_lt h))

/-- What the frame run records for the two carried buffers after position `n` is the closed form. -/
theorem carried (c : Dev nD) : ∀ (n : ℕ) (h : n < cfg0.N),
    (outsAt0 m c n h).2.1 = sums m c n h ∧ (outsAt0 m c n h).2.2 = mins m c n h
  | 0, h => by
    have e := outsAt0_A m c ⟨0, h⟩ rfl (by dsimp only; omega) rfl (by dsimp only; omega) (by dsimp only; omega)
    dsimp only at e
    rw [e]
    dsimp only
    exact ⟨Pieces.first_sums c _ _ _ _ _ _ _ _ _ _ _ _ _ _ _ _ (iblk m c 0 ⟨0, h⟩) (iblk m c 1 ⟨0, h⟩),
      Pieces.first_mins c _ _ _ _ _ _ _ _ _ _ _ _ _ _ _ _ (iblk m c 0 ⟨0, h⟩) (iblk m c 1 ⟨0, h⟩)⟩
  | n + 1, h => by
    have hN : cfg0.N = 8 := N_0
    have ih := carried c n (Nat.lt_of_succ_lt h)
    have h0 : ¬(⟨n + 1, h⟩ : Fin cfg0.N).val % 8 = 0 := by dsimp only; omega
    have h1 : 1 ≤ (⟨n + 1, h⟩ : Fin cfg0.N).val := by dsimp only; omega
    by_cases h4 : (⟨n + 1, h⟩ : Fin cfg0.N).val % 8 = 7
    · rw [outsAt0_C m c ⟨n + 1, h⟩ h0 h1 h0 h1 h4]
      dsimp only
      refine ⟨(Pieces.last_sums c _ _ _ _ _ _ _ _ _ _ _ _ _ _ _ _ (iblk m c 0 ⟨n + 1, h⟩) (iblk m c 1 ⟨n + 1, h⟩) _ _).trans ?_,
        (Pieces.last_mins c _ _ _ _ _ _ _ _ _ _ _ _ _ _ _ _ (iblk m c 0 ⟨n + 1, h⟩) (iblk m c 1 ⟨n + 1, h⟩) _ _).trans ?_⟩
      · show k0_pay1 _ (outsAt0 m c n _).2.1 = k0_pay1 _ (sums m c n _)
        rw [ih.1]
      · show k0_pay9 _ _ (outsAt0 m c n _).2.2 = k0_pay9 _ _ (mins m c n _)
        rw [ih.2]
    · rw [outsAt0_B m c ⟨n + 1, h⟩ h0 h1 h0 h1 h4]
      dsimp only
      refine ⟨(Pieces.next_sums c _ _ _ _ _ _ _ _ _ _ _ _ _ _ _ _ (iblk m c 0 ⟨n + 1, h⟩) (iblk m c 1 ⟨n + 1, h⟩) _ _).trans ?_,
        (Pieces.next_mins c _ _ _ _ _ _ _ _ _ _ _ _ _ _ _ _ (iblk m c 0 ⟨n + 1, h⟩) (iblk m c 1 ⟨n + 1, h⟩) _ _).trans ?_⟩
      · show k0_pay1 _ (outsAt0 m c n _).2.1 = k0_pay1 _ (sums m c n _)
        rw [ih.1]
      · show k0_pay9 _ _ (outsAt0 m c n _).2.2 = k0_pay9 _ _ (mins m c n _)
        rw [ih.2]

end Cert.KernelIdeal.Scan

end
-- ==== Proof.Result.lean ====
/-
  The array the region leaves in the result buffer. The output window's one block (index (0, 0), the whole 1 × 1
  array) is idle at every grid position but the last and written back there only; what is written is the result
  formed from the two carried buffers after the last position. So the result array ends holding exactly that, and
  @main's closing reshape reads it as a scalar.
-/
import proofs.«152558_g26491358282344_cont_9to1_1100_13_alg».proof.Proof.Scan
import Idealize.ShloMosaic.Lib.StableHlo.Run

set_option maxRecDepth 16384

noncomputable section

open Idealize.ShloMosaic Idealize.ShloMosaic.TcCoe Idealize.SL.Sem
open Idealize.ShloMosaic.Pipeline (Dat)

namespace Cert.KernelIdeal.Result

open Cert.KernelIdeal Cert.KernelIdeal.Gen Cert.KernelIdeal.Scan

variable {F : FTy → Type} [FloatOps F]
variable (m : (ℓ : Loc nD τ sig) → Buf (Elt F) ℓ) (ρ : Dev nD → PrngReg)

theorem lastLt : 7 < cfg0.N := by rw [show cfg0.N = 8 from N_0]; decide

/-- The result block: formed from the running minima and the running sums after the last position. -/
abbrev result (c : Dev nD) : Buf (Elt F) ((c : Thread nD τ).loc main_v1) :=
  k0_pay2 (mins m c 7 lastLt) (sums m c 7 lastLt)

/-- What the frame run records for the output's staging buffer after the last position is the result block. -/
theorem out_last (c : Dev nD) : (outsAt0 m c 7 lastLt).1 = result m c := by
  have h0 : ¬(⟨7, lastLt⟩ : Fin cfg0.N).val % 8 = 0 := by decide
  have h1 : 1 ≤ (⟨7, lastLt⟩ : Fin cfg0.N).val := by decide
  have h4 : (⟨7, lastLt⟩ : Fin cfg0.N).val % 8 = 7 := by decide
  have e := outsAt0_C m c ⟨7, lastLt⟩ h0 h1 h0 h1 h4
  dsimp only at e
  rw [e]
  dsimp only
  refine (Pieces.last_result c _ _ _ _ _ _ _ _ _ _ _ _ _ _ _ _ (iblk m c 0 ⟨7, lastLt⟩) (iblk m c 1 ⟨7, lastLt⟩) _ _).trans ?_
  have ih := carried m c 6 (Nat.lt_of_succ_lt lastLt)
  show k0_pay2 (k0_pay9 _ _ (outsAt0 m c 6 _).2.2) (k0_pay1 _ (outsAt0 m c 6 _).2.1) = k0_pay2 (mins m c 7 _) (sums m c 7 _)
  rw [ih.1, ih.2]
  rfl

/-- The one write-back, at the last position, writes the result block: block (0, 0) of the 1 × 1 array is the array. -/
theorem flushed_eq (c : Dev nD) (t : Fin cfg0.N) (hf : (cfg0.win 2).flush t = true) :
    (dats m 0 c).flushed 2 t = ((cfg0.win 2).blk t).view.read (Elt F) (result m c) := by
  have hN : cfg0.N = 8 := N_0
  have h7 : t.val = 7 := by have := (flush0_2 t).mp hf; have := t.isLt; omega
  obtain rfl : t = t0_7 := Fin.ext h7
  show (cfg0.win 2).cut (grid0.coords t0_7) ((dats m 0 c).after 2 t0_7) = _
  rw [after0_2]
  show (cfg0.win 2).cut (grid0.coords t0_7) (outsAt0 m c 7 lastLt).1 = _
  rw [out_last]
  have hz' : (fun a => win0_2.index t0_7 a * main_v1.ty.shape.size a) = fun _ => 0 := funext fun a => by fin_cases a <;> decide
  exact (Memref.read_access_unit_zero (Elt F) main_v1 hz' (fun a => by rw [congrFun hz' a]; simp) (result m c)).symm

/-- The last position's block sits at the origin of the 1 × 1 array and has extent one along both axes. -/
theorem last_block (a : Fin 2) :
    win0_2.index t0_7 a * win0_2.size a = 0 ∧ win0_2.xsize (grid0.coords t0_7) a = 1 := by
  fin_cases a <;> exact ⟨by decide +kernel, by decide +kernel⟩

/-- So the result array ends holding the result block: its only index lies in the block the last position writes back. -/
theorem final_o (c : Dev nD) : (dats m 0 c).arrAt 2 cfg0.N = result m c :=
  (dats m 0 c).arrAt_eq_of_cover 2 (result m c) (flushed_eq m c) fun i =>
    ⟨t0_7, (flush0_2 t0_7).mpr rfl, by
      show i ∈ ((View.whole main_v1).slice (win0_2.rect t0_7)).set
      rw [View.set_slice_whole, Rect.mem_set_unit]
      intro a
      obtain ⟨ho, hx⟩ := last_block a
      have hi : (i a : ℕ) < 1 := by fin_cases a <;> exact (i _).isLt
      show win0_2.index t0_7 a * win0_2.size a ≤ (i a : ℕ)
        ∧ (i a : ℕ) < win0_2.index t0_7 a * win0_2.size a + win0_2.xsize (grid0.coords t0_7) a
      rw [ho, hx]
      omega⟩

end Cert.KernelIdeal.Result

end
-- ==== Proof.KernelRun.lean ====
/-
  The idealized kernel's run, read: every weakly fair execution terminates with the scalar result at the result
  block's one entry (the closing reshape of the 1 × 1 array) and both argument arrays unchanged.
-/
import proofs.«152558_g26491358282344_cont_9to1_1100_13_alg».proof.Proof.Result

set_option maxRecDepth 16384

noncomputable section

open Idealize.ShloMosaic Idealize.ShloMosaic.TcCoe Idealize.SL.Sem
open Idealize.ShloMosaic.Pipeline (Dat)

namespace Cert.KernelIdeal.KernelRun

open Cert.KernelIdeal Cert.KernelIdeal.Gen Cert.KernelIdeal.Result

variable {F : FTy → Type} [FloatOps F]
variable (m : (ℓ : Loc nD τ sig) → Buf (Elt F) ℓ) (ρ : Dev nD → PrngReg)

/-- The scalar @main returns: the result block reshaped. -/
abbrev scalar (c : Dev nD) : Buf (Elt F) ((c : Thread nD τ).loc main_v2) :=
  shapeCast S_ (result m c) shapeCasts_S1x1_S_

/-- The host line after the region reshapes the result array. -/
theorem tail_eq (c : Dev nD) :
    Pipeline.afterTail₀ cfgs (dats m) 0 (V0 m) [hostOps1] c main_v2 = scalar m c := by
  unfold Pipeline.afterTail₀
  show StableHlo.after hostOps1 _ (Proc.devRef .tc main_v2) = _
  after_results
  have e : Pipeline.withArrays (cfgs 0).spec c (V0 m c) (fun w => (dats m 0 c).arrAt w (cfgs 0).N) (Proc.devRef .tc main_v1) = result m c :=
    (Pipeline.withArrays_arr spec0 launch0.win.arr_inj c _ _ 2).trans (final_o m c)
  funext i
  exact congrFun (congrArg (fun x : S1x1.Idx → Elt F .f32 => shapeCast S_ x shapeCasts_S1x1_S_) e) i

/-- Every weakly fair execution of the idealized kernel terminates with the scalar result where @main returns it and
    both argument arrays as they were. -/
theorem run : θ_run defs (onTc (τ := τ) (main (F := F))) ⟨m, fun _ => 0, ρ⟩ fun r => ∀ c : Dev nD,
      r.2.mem ((c : Thread nD τ).loc main_v2) = scalar m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
    ⟨((h c).2 main_v2 (Pipeline.mem_restRefs_of main_v2 (by decide) (by decide))).trans (tail_eq m c),
     ((h c).2 main_arg0 (Pipeline.mem_restRefs_of main_arg0 (by decide) (by decide))).trans (W_main_arg0 m (dats m) c),
     ((h c).1 0).trans (((dats m 0 c).arrAt_in 0 rfl _).trans ((A_eq m c 0).trans (V_main_arg1 m c)))⟩)
    (run_main m ρ)

end Cert.KernelIdeal.KernelRun

end
-- ==== Proof.Spec.lean ====
/-
  The average symmetric surface distance of two clouds of 8192 points in three coordinates, written twice over
  the extended reals: as the reference arranges it (for every point the nearest point of the other cloud by the
  clamped squared distance |a|² + |b|² − 2·a·b, a square root, the two sums of nearest distances added) and as the
  tiled kernel arranges it (the cross term Σ (−2·p)·r once; per point of the first cloud the minimum over the second
  with |r|² inside and |p|² added afterwards, clamped once; per point of the second cloud a running minimum over
  eight tiles of 1024 points of the first, with |p|² inside and |r|² added per tile, clamped at the end; the
  first cloud's nearest distances summed tile by tile into 1024 running sums).
  Only definitions live here; that the two totals agree on clouds of real numbers is a separate module.
-/
import Idealize.ShloMosaic.PureOps.Ideal
import Idealize.ShloMosaic.PureOps.Ideal.Laws
import Idealize.ShloMosaic.Lib.ValueIdx

noncomputable section

namespace Cert.Spec

open Idealize.ShloMosaic

/-- A cloud of 8192 points by coordinate. -/
abbrev Cloud := Fin 8192 → Fin 3 → EReal

/-- The clamp under the square roots, the float word both programs carry (about 1e-12). -/
def eps : EReal := Ideal.ofBits .f32 0x2B8CBCCC#32
/-- The float word for 2 (the reference doubles the inner product). -/
def two : EReal := Ideal.ofBits .f32 0x40000000#32
/-- The float word for −2 (the kernel scales one operand of its cross term). -/
def negTwo : EReal := Ideal.ofBits .f32 0xC0000000#32
/-- The float word for 16384, the number of points of both clouds together. -/
def cnt : EReal := Ideal.ofBits .f32 0x46800000#32
/-- The float word for +∞, which both programs start their minima from. -/
def inf32 : EReal := Ideal.ofBits .f32 0x7F800000#32

/-- The minimum of finitely many extended reals, folded from +∞. -/
def minOver {n : ℕ} (f : Fin n → EReal) : EReal := (Finset.univ : Finset (Fin n)).fold min inf32 f

/-- |A a|². -/
def sq (A : Cloud) (a : Fin 8192) : EReal := ∑ k : Fin 3, A a k * A a k
/-- A a · B b. -/
def dot (A B : Cloud) (a b : Fin 8192) : EReal := ∑ k : Fin 3, A a k * B b k

/-! ## As the reference arranges it -/

/-- The clamped squared distance from point `a` of `A` to point `b` of `B`. -/
def refSq (A B : Cloud) (a b : Fin 8192) : EReal := max ((sq A a + sq B b) - two * dot A B a b) eps
/-- The distance from point `a` of `A` to the nearest point of `B`. -/
def refNN (A B : Cloud) (a : Fin 8192) : EReal := Ideal.sqrt (minOver fun b => refSq A B a b)
/-- Both sums of nearest distances, `P` to `R` first. -/
def refTotal (R P : Cloud) : EReal := (∑ i : Fin 8192, refNN P R i) + (∑ j : Fin 8192, refNN R P j)

/-! ## As the tiled kernel arranges it -/

/-- Row `a` of tile `t`: eight tiles of 1024 consecutive points. -/
def row (t : Fin 8) (a : Fin 1024) : Fin 8192 := ⟨t.val * 1024 + a.val, by omega⟩
/-- The tile a grid position names (positions run 0 … 7). -/
def tileOf (n : ℕ) : Fin 8 := ⟨n % 8, Nat.mod_lt _ (by decide)⟩

/-- The cross term Σ (−2·P i)·R j. -/
def cross (P R : Cloud) (i j : Fin 8192) : EReal := ∑ k : Fin 3, (negTwo * P i k) * R j k
/-- The distance from point `i` of `P` to the nearest point of `R`, |P i|² added after the minimum, clamped once. -/
def rowNN (P R : Cloud) (i : Fin 8192) : EReal :=
  Ideal.sqrt (max (minOver (fun j => cross P R i j + sq R j) + sq P i) eps)
/-- Tile `t`'s candidate for the squared distance from point `j` of `R` to the nearest point of `P`. -/
def tileCol (P R : Cloud) (t : Fin 8) (j : Fin 8192) : EReal :=
  minOver (fun a : Fin 1024 => cross P R (row t a) j + sq P (row t a)) + sq R j
/-- The running minimum of the tiles' candidates after grid position `n`. -/
def colAcc (P R : Cloud) : ℕ → Fin 8192 → EReal
  | 0, j => tileCol P R (tileOf 0) j
  | n + 1, j => min (colAcc P R n j) (tileCol P R (tileOf (n + 1)) j)
/-- The running sums of the first cloud's nearest distances after grid position `n`, one per row of a tile. -/
def rowAcc (P R : Cloud) : ℕ → Fin 1024 → EReal
  | 0, a => rowNN P R (row (tileOf 0) a)
  | n + 1, a => rowAcc P R n a + rowNN P R (row (tileOf (n + 1)) a)
/-- Both sums as the kernel's last grid position forms them. -/
def kerTotal (P R : Cloud) : EReal :=
  (∑ a : Fin 1024, rowAcc P R 7 a) + (∑ j : Fin 8192, Ideal.sqrt (max (colAcc P R 7 j) eps))

/-- An 8192 × 3 array of extended reals read as a cloud: point `a`, coordinate `k`. -/
def cloud (x : (⟨2, ![8192, 3]⟩ : Shape).Idx → EReal) : Cloud := fun a k => x (ValueIdx.ix2 a k)

/-- A cloud of real numbers. -/
def Finite (A : Cloud) : Prop := ∀ a k, ∃ r : ℝ, A a k = (r : EReal)

end Cert.Spec

end
-- ==== Proof.LibReadAt.lean ====
/-
  General reading lemmas over literal shapes, in the style of the library's layout lemmas: a vector made a column
  ([a] to [a, 1]); a column repeated along rows ([a, 1] to [a, b]); a one-axis minimum reduction at the ideal
  values as the fold of `min` over that axis's coordinates; and a total sum over a rank-three index type with two
  unit axes as the sum over its one long coordinate.
-/
import Idealize.ShloMosaic.PureOps.Ideal.Laws
import Idealize.ShloMosaic.Lib.Pipeline.Value
import Idealize.ShloMosaic.Lib.ValueIdx
import Idealize.ShloMosaic.Lib.ValueLayout

namespace Cert.LibReadAt

open Idealize.ShloMosaic Idealize.ShloMosaic.ValueIdx

variable {α : Type}

/-- An `[a]` array cast to a column `[a, 1]` reads, at `(i, u)`, the operand at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- At the ideal values a minimum reduction over ONE axis is, at each reduced index, the fold of `min` from the
    accumulator's value over that axis's coordinates. -/
theorem multiReduction_minimumf_single {φ : FTy} {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- A sum over the second axis of an `[a, b]` array, read at `i`, is the sum over the row's entries. -/
theorem sumAxis1_apply {φ : FTy} {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ k : Fin b, src (ix2 i k) := by
  refine (Ideal.multiReduction_add_single src acc h hφ hacc (ix1 i)).trans ?_
  exact Finset.sum_congr rfl fun k _ => congrArg src (funext fun d => Fin.ext (by match d with | ⟨0, _⟩ => rfl | ⟨1, _⟩ => rfl))

/-- A sum over the first axis of an `[a, b]` array, read at `j`, is the sum over the column's entries. -/
theorem sumAxis0_apply {φ : FTy} {a b : ℕ} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ) (j : Fin b) :
    multiReduction .add [0] ⟨1, ![b]⟩ src acc h hφ hacc (ix1 j) = ∑ k : Fin a, src (ix2 k j) := by
  refine (Ideal.multiReduction_add_single src acc h hφ hacc (ix1 j)).trans ?_
  exact Finset.sum_congr rfl fun k _ => congrArg src (funext fun d => Fin.ext (by match d with | ⟨0, _⟩ => rfl | ⟨1, _⟩ => rfl))

/-- A minimum over the second axis of an `[a, b]` array, read at `i`, is the fold of `min` over the row's entries. -/
theorem minAxis1_apply {φ : FTy} {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.minimumf.neutral φ hφ) (i : Fin a) :
    multiReduction .minimumf [1] ⟨1, ![a]⟩ src acc h hφ hacc (ix1 i)
      = (Finset.univ : Finset (Fin b)).fold min (Ideal.ofBits φ acc) (fun k => src (ix2 i k)) := by
  refine (multiReduction_minimumf_single src acc h hφ hacc (ix1 i)).trans ?_
  exact congrArg (fun f => Finset.fold min (Ideal.ofBits φ acc) f (Finset.univ : Finset (Fin b)))
    (funext fun k => congrArg src (funext fun d => Fin.ext (by match d with | ⟨0, _⟩ => rfl | ⟨1, _⟩ => rfl)))

/-- A minimum over the first axis of an `[a, b]` array, read at `j`, is the fold of `min` over the column's entries. -/
theorem minAxis0_apply {φ : FTy} {a b : ℕ} (src : FVec Ideal ⟨2, ![a, b]⟩ φ) (acc : BitVec φ.bits)
    (h : (⟨2, ![a, b]⟩ : Shape).Reduces [0] ⟨1, ![b]⟩) (hφ : FKind.Formats φ) (hacc : acc = FKind.minimumf.neutral φ hφ) (j : Fin b) :
    multiReduction .minimumf [0] ⟨1, ![b]⟩ src acc h hφ hacc (ix1 j)
      = (Finset.univ : Finset (Fin a)).fold min (Ideal.ofBits φ acc) (fun k => src (ix2 k j)) := by
  refine (multiReduction_minimumf_single src acc h hφ hacc (ix1 j)).trans ?_
  exact congrArg (fun f => Finset.fold min (Ideal.ofBits φ acc) f (Finset.univ : Finset (Fin a)))
    (funext fun k => congrArg src (funext fun d => Fin.ext (by match d with | ⟨0, _⟩ => rfl | ⟨1, _⟩ => rfl)))

/-- The indices of a `[1, a, 1]` shape are its middle coordinates. -/
def midEquiv (a : ℕ) : Fin a ≃ (⟨3, ![1, a, 1]⟩ : Shape).Idx where
  toFun k := ix3 (0 : Fin 1) k (0 : Fin 1)
  invFun i := i 1
  left_inv _ := rfl
  right_inv i := funext fun d => match d with
    | ⟨0, _⟩ => Fin.ext (by have h : (i 0).val < 1 := (i 0).isLt; show (0 : ℕ) = (i 0).val; omega)
    | ⟨1, _⟩ => rfl
    | ⟨2, _⟩ => Fin.ext (by have h : (i 2).val < 1 := (i 2).isLt; show (0 : ℕ) = (i 2).val; omega)

/-- So a sum over them is the sum over the middle coordinate. -/
theorem sum_idx_1a1 {M : Type*} [AddCommMonoid M] {a : ℕ} (f : (⟨3, ![1, a, 1]⟩ : Shape).Idx → M) :
    ∑ i, f i = ∑ k : Fin a, f (ix3 (0 : Fin 1) k (0 : Fin 1)) :=
  (Equiv.sum_comp (midEquiv a) f).symm

/-- The indices of a `[1, 1, b]` shape are its last coordinates. -/
def lastEquiv (b : ℕ) : Fin b ≃ (⟨3, ![1, 1, b]⟩ : Shape).Idx where
  toFun k := ix3 (0 : Fin 1) (0 : Fin 1) k
  invFun i := i 2
  left_inv _ := rfl
  right_inv i := funext fun d => match d with
    | ⟨0, _⟩ => Fin.ext (by have h : (i 0).val < 1 := (i 0).isLt; show (0 : ℕ) = (i 0).val; omega)
    | ⟨1, _⟩ => Fin.ext (by have h : (i 1).val < 1 := (i 1).isLt; show (0 : ℕ) = (i 1).val; omega)
    | ⟨2, _⟩ => rfl

/-- So a sum over them is the sum over the last coordinate. -/
theorem sum_idx_11b {M : Type*} [AddCommMonoid M] {b : ℕ} (f : (⟨3, ![1, 1, b]⟩ : Shape).Idx → M) :
    ∑ i, f i = ∑ k : Fin b, f (ix3 (0 : Fin 1) (0 : Fin 1) k) :=
  (Equiv.sum_comp (lastEquiv b) f).symm

end Cert.LibReadAt
-- ==== Proof.PayAt.lean ====
/-
  The tiled arrangement's arithmetic, read one entry at a time over the extended reals.

  One step of the tiled computation holds a block x0 of 1024 points of the first cloud (points by rows, the three
  coordinates by columns) and the whole second cloud x1 transposed (coordinates by rows, points by columns). From
  them it forms: the squares |x0 a|² as a column and |x1 j|² as a row (sums over the three coordinates); the cross
  term Σ (−2·x0 a k)·x1 k j as a 1024 × 8192 array (a contraction over the one shared axis, into a zero array);
  per row a the minimum over j of cross + |x1 j|², to which |x0 a|² is added, clamped from below and rooted;
  per column j the minimum over a of cross + |x0 a|², to which |x1 j|² is added. Between steps a row of running
  minima is lowered entrywise, a column of running sums is raised entrywise, and at the end the two are summed,
  added and divided by the number of points. Each statement below reads one of these arrays at an index given by
  its coordinates; reshaping to the same shape is the identity, and a reshaping that adds or drops unit axes keeps
  the entry at the remaining coordinate.
-/
import proofs.«152558_g26491358282344_cont_9to1_1100_13_alg».proof.Proof.Gen.KernelIdeal.Skeleton
import proofs.«152558_g26491358282344_cont_9to1_1100_13_alg».proof.Proof.Spec
import proofs.«152558_g26491358282344_cont_9to1_1100_13_alg».proof.Proof.LibReadAt
import Idealize.ShloMosaic.Lib.ValueLayout
import Idealize.ShloMosaic.Lib.ValueIdx
import Idealize.ShloMosaic.Lib.Pipeline.Value
import Idealize.ShloMosaic.PureOps.Ideal.Laws

noncomputable section

namespace Cert.KernelIdeal.PayAt

open Idealize.ShloMosaic Idealize.ShloMosaic.ValueIdx Cert.KernelIdeal Cert.KernelIdeal.Gen Cert.LibReadAt

/-! ## The squares -/

/-- The block's squares, a column: at row `a` the sum of the squares of the point's three coordinates. -/
theorem sqRow (x0 : FVec Ideal S1024x3 .f32) (a : Fin 1024) (u : Fin 1) :
    k0_pay3 (F := Ideal) x0 (ix2 a u) = ∑ k : Fin 3, x0 (ix2 a k) * x0 (ix2 a k) := by
  unfold k0_pay3
  refine (shapeCast_a_a1_apply _ _ a u).trans ?_
  exact sumAxis1_apply _ _ _ _ _ a

/-- Reshaping the transposed cloud to its own shape changes nothing. -/
theorem pay4_eq (x1 : FVec Ideal S3x8192 .f32) : k0_pay4 (F := Ideal) x1 = x1 := by
  unfold k0_pay4
  exact shapeCast_self _ _

/-- The second cloud's squares, a row: at column `j` the sum of the squares of the point's three coordinates. -/
theorem sqCol (x1 : FVec Ideal S3x8192 .f32) (u : Fin 1) (j : Fin 8192) :
    k0_pay5 (F := Ideal) x1 (ix2 u j) = ∑ k : Fin 3, x1 (ix2 k j) * x1 (ix2 k j) := by
  unfold k0_pay5
  refine (shapeCast_a_1a_apply _ _ u j).trans ?_
  refine (sumAxis0_apply _ _ _ _ _ j).trans ?_
  rw [pay4_eq]
  rfl

/-! ## The cross term -/

/-- The contraction of the cross term: the block's columns against the transposed cloud's rows. -/
abbrev dotD : DotDims S1024x3 S3x8192 S1024x8192 := dot_S1024x3_S3x8192_S1024x8192_1_0_0_1_n_n

/-- The left operand is read at the output's row … -/
theorem lhs_0 (i : S1024x8192.Idx) (q : dotD.contr.Idx) : (dotD.lhsIdx i q 0).val = (i 0).val := by
  unfold DotDims.lhsIdx
  rw [dif_neg (show ¬(0 : Fin S1024x3.rank) ∈ dotD.lhsBatch by decide),
    dif_pos (show (0 : Fin S1024x3.rank) ∈ dotD.lhsNonContracting by decide)]
  rfl
/-- … and at the contracted coordinate; -/
theorem lhs_1 (i : S1024x8192.Idx) (q : dotD.contr.Idx) : (dotD.lhsIdx i q 1).val = (q ⟨0, by decide⟩).val :=
  dotD.lhsIdx_val_of_single rfl i q
/-- the right operand at the contracted coordinate … -/
theorem rhs_0 (i : S1024x8192.Idx) (q : dotD.contr.Idx) : (dotD.rhsIdx i q 0).val = (q ⟨0, by decide⟩).val :=
  dotD.rhsIdx_val_of_single rfl i q
/-- … and at the output's column. -/
theorem rhs_1 (i : S1024x8192.Idx) (q : dotD.contr.Idx) : (dotD.rhsIdx i q 1).val = (i 1).val := by
  unfold DotDims.rhsIdx
  rw [dif_neg (show ¬(1 : Fin S3x8192.rank) ∈ dotD.rhsBatch by decide),
    dif_pos (show (1 : Fin S3x8192.rank) ∈ dotD.rhsNonContracting by decide)]
  rfl

/-- The cross term at `(a, j)`: the sum over the three coordinates of (−2 · x0 a k) · x1 k j. -/
theorem crossAt (x0 : FVec Ideal S1024x3 .f32) (x1 : FVec Ideal S3x8192 .f32) (a : Fin 1024) (j : Fin 8192) :
    k0_pay6 (F := Ideal) x0 x1 (ix2 a j) = ∑ k : Fin 3, (Cert.Spec.negTwo * x0 (ix2 a k)) * x1 (ix2 k j) := by
  unfold k0_pay6
  refine (Ideal.matmul_constant_zero_apply dotD none _ _ (ix2 a j)).trans ?_
  rw [← Equiv.sum_comp (contrEquiv1 dotD 3 rfl rfl).symm]
  refine Finset.sum_congr rfl fun k _ => ?_
  have hk := contrEquiv1_symm_val dotD 3 rfl rfl k
  have el : dotD.lhsIdx (ix2 a j) ((contrEquiv1 dotD 3 rfl rfl).symm k) = ix2 a k := funext fun c => Fin.ext (by
    match c with
    | ⟨0, _⟩ => exact lhs_0 _ _
    | ⟨1, _⟩ => exact (lhs_1 _ _).trans hk)
  have er : dotD.rhsIdx (ix2 a j) ((contrEquiv1 dotD 3 rfl rfl).symm k) = ix2 k j := funext fun c => Fin.ext (by
    match c with
    | ⟨0, _⟩ => exact (rhs_0 _ _).trans hk
    | ⟨1, _⟩ => exact rhs_1 _ _)
  rw [el, er, pay4_eq]
  rfl

/-! ## Small readings -/

/-- A root at an index is the root of the entry. -/
theorem sqrt_apply {s : Shape} {φ : FTy} (x : FVec Ideal s φ) (i : s.Idx) : sqrt x i = Ideal.sqrt (x i) := rfl

/-- The clamp's word as the two programs spell it. -/
theorem eps_read : Scalar.ofBits (F := Ideal) .f32 0x2B8CBCCC#32 = Cert.Spec.eps := rfl

/-- The count's word. -/
theorem cnt_read : Scalar.ofBits (F := Ideal) .f32 0x46800000#32 = Cert.Spec.cnt := rfl

/-- The folded minimum from the word for +∞. -/
theorem fold_read {n : ℕ} (f : Fin n → EReal) :
    (Finset.univ : Finset (Fin n)).fold min (Ideal.ofBits .f32 0x7F800000#32) f = Cert.Spec.minOver f := rfl

/-! ## The nearest distances of the block's rows -/

/-- Over abstract arrays: the row minimum of `M + (a row r2 repeated)`, made a column, plus a column `p2`,
    clamped from below and rooted, read at `(a, u)`. -/
theorem rowMin_read (M : FVec Ideal S1024x8192 .f32) (r2 : FVec Ideal S1x8192 .f32) (p2 : FVec Ideal S1024x1 .f32)
    (hb : S1x8192.Broadcasts S1024x8192) (hr : S1024x8192.Reduces [1] S1024) (hφ : FKind.Formats .f32)
    (hacc : (0x7F800000#32 : BitVec FTy.f32.bits) = FKind.minimumf.neutral .f32 hφ) (hs : S1024.ShapeCasts S1024x1)
    (a : Fin 1024) (u : Fin 1) :
    sqrt (maximumf (addf (shapeCast S1024x1
        (multiReduction (F := Ideal) .minimumf [1] S1024 (addf M (broadcastTo S1024x8192 r2 hb)) 0x7F800000#32 hr hφ hacc) hs) p2)
        (broadcast S1024x1 (Scalar.ofBits (F := Ideal) .f32 0x2B8CBCCC#32))) (ix2 a u)
      = Ideal.sqrt (max (Cert.Spec.minOver (fun j : Fin 8192 => M (ix2 a j) + r2 (ix2 (0 : Fin 1) j)) + p2 (ix2 a u))
          Cert.Spec.eps) := by
  rw [sqrt_apply, maximumf_apply, addf_apply, broadcast_apply, eps_read,
    shapeCast_a_a1_apply _ hs a u, minAxis1_apply _ _ hr hφ hacc a, fold_read]
  have hf : (fun k : Fin 8192 => (addf M (broadcastTo S1024x8192 r2 hb)) (ix2 a k))
      = fun j : Fin 8192 => M (ix2 a j) + r2 (ix2 (0 : Fin 1) j) := funext fun k => by
    rw [addf_apply, broadcastTo_1b_ab_apply r2 hb a k]
  rw [hf]

/-- The nearest distance of row `a`: the minimum over the second cloud of cross term plus its square, plus the
    row's own square, clamped and rooted. -/
theorem rowNNAt (x0 : FVec Ideal S1024x3 .f32) (x1 : FVec Ideal S3x8192 .f32) (a : Fin 1024) (u : Fin 1) :
    k0_pay10 (F := Ideal) x0 x1 (ix2 a u)
      = Ideal.sqrt (max (Cert.Spec.minOver (fun j : Fin 8192 =>
          k0_pay6 (F := Ideal) x0 x1 (ix2 a j) + k0_pay5 (F := Ideal) x1 (ix2 (0 : Fin 1) j))
          + k0_pay3 (F := Ideal) x0 (ix2 a u)) Cert.Spec.eps) := by
  unfold k0_pay10
  exact rowMin_read _ _ _ _ _ _ _ _ a u

/-! ## The block's candidates for the second cloud's nearest distances -/

/-- Over abstract arrays: the column minimum of `M + (a column p2 repeated)`, made a row, plus a row `r2`,
    read at `(u, j)`. -/
theorem colMin_read (M : FVec Ideal S1024x8192 .f32) (p2 : FVec Ideal S1024x1 .f32) (r2 : FVec Ideal S1x8192 .f32)
    (hb : S1024x1.Broadcasts S1024x8192) (hr : S1024x8192.Reduces [0] S8192) (hφ : FKind.Formats .f32)
    (hacc : (0x7F800000#32 : BitVec FTy.f32.bits) = FKind.minimumf.neutral .f32 hφ) (hs : S8192.ShapeCasts S1x8192)
    (u : Fin 1) (j : Fin 8192) :
    addf (shapeCast S1x8192
        (multiReduction (F := Ideal) .minimumf [0] S8192 (addf M (broadcastTo S1024x8192 p2 hb)) 0x7F800000#32 hr hφ hacc) hs) r2
        (ix2 u j)
      = Cert.Spec.minOver (fun a : Fin 1024 => M (ix2 a j) + p2 (ix2 a (0 : Fin 1))) + r2 (ix2 u j) := by
  rw [addf_apply, shapeCast_a_1a_apply _ hs u j, minAxis0_apply _ _ hr hφ hacc j, fold_read]
  have hf : (fun k : Fin 1024 => (addf M (broadcastTo S1024x8192 p2 hb)) (ix2 k j))
      = fun a : Fin 1024 => M (ix2 a j) + p2 (ix2 a (0 : Fin 1)) := funext fun k => by
    rw [addf_apply, broadcastTo_a1_ab_apply p2 hb k j]
  rw [hf]

/-- The block's candidate at column `j`: the minimum over the block's rows of cross term plus the row's square,
    plus the column's own square. -/
theorem tileColAt (x0 : FVec Ideal S1024x3 .f32) (x1 : FVec Ideal S3x8192 .f32) (u : Fin 1) (j : Fin 8192) :
    k0_pay7 (F := Ideal) x0 x1 (ix2 u j)
      = Cert.Spec.minOver (fun a : Fin 1024 =>
          k0_pay6 (F := Ideal) x0 x1 (ix2 a j) + k0_pay3 (F := Ideal) x0 (ix2 a (0 : Fin 1)))
          + k0_pay5 (F := Ideal) x1 (ix2 u j) := by
  unfold k0_pay7
  exact colMin_read _ _ _ _ _ _ _ _ u j

/-! ## The copies and the updates -/

/-- The first step stores the candidates as they are. -/
theorem pay8_eq (x0 : FVec Ideal S1024x3 .f32) (x1 : FVec Ideal S3x8192 .f32) :
    k0_pay8 (F := Ideal) x0 x1 = k0_pay7 (F := Ideal) x0 x1 := by
  unfold k0_pay8
  exact shapeCast_self _ _

/-- The first step stores the rows' nearest distances as they are. -/
theorem pay11_eq (x0 : FVec Ideal S1024x3 .f32) (x1 : FVec Ideal S3x8192 .f32) :
    k0_pay11 (F := Ideal) x0 x1 = k0_pay10 (F := Ideal) x0 x1 := by
  unfold k0_pay11
  exact shapeCast_self _ _

/-- A later step lowers the running minimum entrywise. -/
theorem pay9_at (x0 : FVec Ideal S1024x3 .f32) (x1 : FVec Ideal S3x8192 .f32) (v : FVec Ideal S1x8192 .f32)
    (u : Fin 1) (j : Fin 8192) :
    k0_pay9 (F := Ideal) x0 x1 v (ix2 u j) = min (v (ix2 u j)) (k0_pay7 (F := Ideal) x0 x1 (ix2 u j)) := by
  unfold k0_pay9
  rw [shapeCast_self, minimumf_apply]

/-- A later step raises the running sum entrywise. -/
theorem pay1_at (v30 v40 : FVec Ideal S1024x1 .f32) (a : Fin 1024) (u : Fin 1) :
    k0_pay1 (F := Ideal) v30 v40 (ix2 a u) = v40 (ix2 a u) + v30 (ix2 a u) := by
  unfold k0_pay1
  rw [shapeCast_self, addf_apply]

/-! ## The final value -/

/-- The one axis of the one-entry vector has extent one. -/
theorem S1_size (b : Fin S1.rank) : S1.size b = 1 := match b with | ⟨0, _⟩ => rfl

/-- Over an abstract array: the total of a `[1, 1024, 1]` array, held as a one-entry vector, recast and read at
    the origin, is the sum along the long axis. -/
theorem total_1a1_read (w : FVec Ideal S1x1024x1 .f32) (hr : S1x1024x1.Reduces [1, 2] S1) (hφ : FKind.Formats .f32)
    (hacc : (0x00000000#32 : BitVec FTy.f32.bits) = FKind.add.neutral .f32 hφ) (hs : S1.ShapeCasts S1x1x1)
    (hp : ∀ c, (![0, 0, 0] : Fin 3 → Nat) c < S1x1x1.size c) :
    extractAt ![0, 0, 0] (shapeCast S1x1x1 (multiReduction (F := Ideal) .add [1, 2] S1 w 0x00000000#32 hr hφ hacc) hs) hp
      = ∑ k : Fin 1024, w (ix3 (0 : Fin 1) k (0 : Fin 1)) := by
  unfold extractAt
  rw [shapeCast_apply _ hs _ (ix1 (0 : Fin 1)) (by rw [Shape.rowMajor_val_three, Shape.rowMajor_val_one]; rfl),
    Ideal.multiReduction_add_total w _ hr S1_size hφ hacc, sum_idx_1a1]

/-- The same for a `[1, 1, 8192]` array. -/
theorem total_11b_read (w : FVec Ideal S1x1x8192 .f32) (hr : S1x1x8192.Reduces [1, 2] S1) (hφ : FKind.Formats .f32)
    (hacc : (0x00000000#32 : BitVec FTy.f32.bits) = FKind.add.neutral .f32 hφ) (hs : S1.ShapeCasts S1x1x1)
    (hp : ∀ c, (![0, 0, 0] : Fin 3 → Nat) c < S1x1x1.size c) :
    extractAt ![0, 0, 0] (shapeCast S1x1x1 (multiReduction (F := Ideal) .add [1, 2] S1 w 0x00000000#32 hr hφ hacc) hs) hp
      = ∑ k : Fin 8192, w (ix3 (0 : Fin 1) (0 : Fin 1) k) := by
  unfold extractAt
  rw [shapeCast_apply _ hs _ (ix1 (0 : Fin 1)) (by rw [Shape.rowMajor_val_three, Shape.rowMajor_val_one]; rfl),
    Ideal.multiReduction_add_total w _ hr S1_size hφ hacc, sum_idx_11b]

/-- Over abstract shape facts: the two totals, each spread over the one-entry array, added and divided by the
    count's word, read at the one entry. -/
theorem result_read (v40 : FVec Ideal S1x8192 .f32) (v44 : FVec Ideal S1024x1 .f32)
    (hs1 : S1024x1.ShapeCasts S1x1024x1) (hr1 : S1x1024x1.Reduces [1, 2] S1)
    (hs3 : S1x8192.ShapeCasts S1x1x8192) (hr2 : S1x1x8192.Reduces [1, 2] S1)
    (hφ1 : FKind.Formats .f32) (hacc1 : (0x00000000#32 : BitVec FTy.f32.bits) = FKind.add.neutral .f32 hφ1)
    (hφ2 : FKind.Formats .f32) (hacc2 : (0x00000000#32 : BitVec FTy.f32.bits) = FKind.add.neutral .f32 hφ2)
    (hs2 : S1.ShapeCasts S1x1x1) (hp : ∀ c, (![0, 0, 0] : Fin 3 → Nat) c < S1x1x1.size c) (u u' : Fin 1) :
    divf (addf
        (broadcast S1x1 (extractAt ![0, 0, 0] (shapeCast S1x1x1
          (multiReduction (F := Ideal) .add [1, 2] S1 (shapeCast S1x1024x1 v44 hs1) 0x00000000#32 hr1 hφ1 hacc1) hs2) hp))
        (broadcast S1x1 (extractAt ![0, 0, 0] (shapeCast S1x1x1
          (multiReduction (F := Ideal) .add [1, 2] S1
            (shapeCast S1x1x8192 (sqrt (maximumf v40 (broadcast S1x8192 (Scalar.ofBits (F := Ideal) .f32 0x2B8CBCCC#32)))) hs3)
            0x00000000#32 hr2 hφ2 hacc2) hs2) hp)))
        (broadcast S1x1 (Scalar.ofBits (F := Ideal) .f32 0x46800000#32)) (ix2 u u')
      = Ideal.div ((∑ a : Fin 1024, v44 (ix2 a (0 : Fin 1)))
          + (∑ j : Fin 8192, Ideal.sqrt (max (v40 (ix2 (0 : Fin 1) j)) Cert.Spec.eps))) Cert.Spec.cnt := by
  rw [divf_apply, addf_apply, broadcast_apply, broadcast_apply, broadcast_apply, cnt_read,
    total_1a1_read, total_11b_read]
  have h1 : ∀ k : Fin 1024, shapeCast S1x1024x1 v44 hs1 (ix3 (0 : Fin 1) k (0 : Fin 1))
      = v44 (ix2 k (0 : Fin 1)) := fun k => shapeCast_ab_1ab_apply v44 hs1 0 k 0
  have h2 : ∀ k : Fin 8192, shapeCast S1x1x8192
        (sqrt (maximumf v40 (broadcast S1x8192 (Scalar.ofBits (F := Ideal) .f32 0x2B8CBCCC#32))))
        hs3 (ix3 (0 : Fin 1) (0 : Fin 1) k)
      = Ideal.sqrt (max (v40 (ix2 (0 : Fin 1) k)) Cert.Spec.eps) := fun k => by
    rw [shapeCast_ab_1ab_apply _ hs3 0 0 k, sqrt_apply, maximumf_apply, broadcast_apply, eps_read]
  simp only [h1, h2]

/-- The final value: the running sums added up, plus the roots of the clamped running minima added up, divided by
    the number of points. -/
theorem resultAt (v40 : FVec Ideal S1x8192 .f32) (v44 : FVec Ideal S1024x1 .f32) (u u' : Fin 1) :
    k0_pay2 (F := Ideal) v40 v44 (ix2 u u')
      = Ideal.div ((∑ a : Fin 1024, v44 (ix2 a (0 : Fin 1)))
          + (∑ j : Fin 8192, Ideal.sqrt (max (v40 (ix2 (0 : Fin 1) j)) Cert.Spec.eps))) Cert.Spec.cnt := by
  unfold k0_pay2
  exact result_read v40 v44 _ _ _ _ _ _ _ _ _ _ u u'

end Cert.KernelIdeal.PayAt

end
-- ==== Proof.Tiles.lean ====
/-
  What the kernel's two input windows hold, entry by entry.

  Before the tiled region the program transposes the first argument, the 8192 × 3 array of the real cloud, into a
  3 × 8192 array; nothing else is written before the region. The first window cuts the second argument, the 8192 × 3
  array of the predicted cloud, into eight blocks of 1024 consecutive rows: at grid point t its block is block
  (t, 0), so entry (a, k) of the block is entry (1024·t + a, k) of the array, coordinate k of point a of tile t. The
  second window is the whole transposed array at every grid point (block (0, 0) of block shape 3 × 8192), so its
  entry (k, j) is entry (j, k) of the first argument, coordinate k of point j of the real cloud. A block's coordinate
  in its array is always block index × block size + the coordinate inside the block; the block indices are decided
  once over the eight grid points.
-/
import proofs.«152558_g26491358282344_cont_9to1_1100_13_alg».proof.Proof.Gen.KernelIdeal.Frame
import proofs.«152558_g26491358282344_cont_9to1_1100_13_alg».proof.Proof.Spec
import Idealize.ShloMosaic.Lib.Pipeline.Value
import Idealize.ShloMosaic.Lib.StableHlo.Run
import Idealize.ShloMosaic.Lib.ValueLayout
import Idealize.ShloMosaic.Lib.ValueIdx

noncomputable section

namespace Cert.KernelIdeal.Tiles

open Idealize.ShloMosaic Idealize.ShloMosaic.TcCoe Idealize.SL.Sem Idealize.ShloMosaic.ValueIdx
open Cert.KernelIdeal Cert.KernelIdeal.Gen

variable (m : (ℓ : Loc nD τ sig) → Buf (Elt Ideal) ℓ)

/-! ## The arrays as the region finds them -/

/-- The region finds, in the buffer of the transposed array, the transpose of the first argument. -/
theorem transposed (c : Dev nD) :
    V m c main_v0 = transpose S3x8192 [1, 0] (m ((c : Thread nD τ).loc main_arg0)) transposes_S8192x3_S3x8192_1_0 := by
  show StableHlo.after hostOps0 (fun b => m (c, b)) (Proc.devRef .tc main_v0) = _
  after_results

/-! ## The block indices over the grid -/

/-- The first window's block at grid point t is block (t, 0). -/
theorem idx0 : ∀ t : Fin cfg0.N, win0_0.index t (0 : Fin 2) = t.val ∧ win0_0.index t (1 : Fin 2) = 0 :=
  (by decide +kernel : ∀ t : Fin grid0.N, _)

/-- The second window's block at every grid point is block (0, 0). -/
theorem idx1 : ∀ t : Fin cfg0.N, win0_1.index t (0 : Fin 2) = 0 ∧ win0_1.index t (1 : Fin 2) = 0 :=
  (by decide +kernel : ∀ t : Fin grid0.N, _)

/-! ## The windows' blocks at an entry -/

/-- Entry (a, k) of the first window's block at grid point t is coordinate k of point a of tile t of the predicted cloud. -/
theorem tile_entry (c : Dev nD) (t : Fin cfg0.N) (a : Fin 1024) (k : Fin 3) :
    (iblk m c 0 t : FVec Ideal S1024x3 .f32) (ix2 a k)
      = Cert.Spec.cloud (m ((c : Thread nD τ).loc main_arg1)) (Cert.Spec.row (Cert.Spec.tileOf t.val) a) k := by
  have h8 : t.val < 8 := t.isLt.trans_eq N_0
  unfold iblk
  rw [View.read_apply]
  show V m c main_arg1 _ = _
  rw [V_main_arg1]
  unfold Cert.Spec.cloud
  refine congrArg (m ((c : Thread nD τ).loc main_arg1)) (funext fun d => Fin.ext ?_)
  match d with
  | ⟨0, _⟩ =>
    show win0_0.index t 0 * 1024 + 1 * a.val = (t.val % 8) * 1024 + a.val
    rw [(idx0 t).1, Nat.mod_eq_of_lt h8]; omega
  | ⟨1, _⟩ =>
    show win0_0.index t 1 * 3 + 1 * k.val = k.val
    rw [(idx0 t).2]; omega

/-- Entry (k, j) of the second window's block, at any grid point, is coordinate k of point j of the real cloud. -/
theorem second_entry (c : Dev nD) (t : Fin cfg0.N) (k : Fin 3) (j : Fin 8192) :
    (iblk m c 1 t : FVec Ideal S3x8192 .f32) (ix2 k j)
      = Cert.Spec.cloud (m ((c : Thread nD τ).loc main_arg0)) j k := by
  unfold iblk
  rw [View.read_apply]
  show V m c main_v0 _ = _
  rw [transposed]
  unfold Cert.Spec.cloud
  refine (congrArg (transpose S3x8192 [1, 0] (m ((c : Thread nD τ).loc main_arg0)) transposes_S8192x3_S3x8192_1_0)
    (funext fun d => Fin.ext ?_ : _ = ix2 k j)).trans (transpose_ix2_apply _ _ k j)
  match d with
  | ⟨0, _⟩ =>
    show win0_1.index t 0 * 3 + 1 * k.val = k.val
    rw [(idx1 t).1]; omega
  | ⟨1, _⟩ =>
    show win0_1.index t 1 * 8192 + 1 * j.val = j.val
    rw [(idx1 t).2]; omega

end Cert.KernelIdeal.Tiles

end
-- ==== Proof.Values.lean ====
/-
  The kernel's scalar is the tiled arrangement of the distance. With P the predicted cloud and R the real one:
  a tile's rows are rows t·1024 + a of P and the second operand is R transposed, so the body's squares, cross
  term, nearest distances and candidates at a grid position are the specification's for that tile; by induction on
  the position the carried buffers are the specification's running sums and running minima; and the result block's
  one entry is the two totals added and divided by the number of points.
-/
import proofs.«152558_g26491358282344_cont_9to1_1100_13_alg».proof.Proof.KernelRun
import proofs.«152558_g26491358282344_cont_9to1_1100_13_alg».proof.Proof.PayAt
import proofs.«152558_g26491358282344_cont_9to1_1100_13_alg».proof.Proof.Tiles

set_option maxRecDepth 16384

noncomputable section

open Idealize.ShloMosaic Idealize.ShloMosaic.TcCoe Idealize.SL.Sem Idealize.ShloMosaic.ValueIdx

namespace Cert.KernelIdeal.Values

open Cert.KernelIdeal Cert.KernelIdeal.Gen Cert.KernelIdeal.Scan Cert.KernelIdeal.Result Cert.KernelIdeal.KernelRun

variable (m : (ℓ : Loc nD τ sig) → Buf (Elt Ideal) ℓ)

/-- The predicted cloud (the kernel's first operand). -/
abbrev P (c : Dev nD) : Cert.Spec.Cloud := Cert.Spec.cloud (m ((c : Thread nD τ).loc main_arg1))
/-- The real cloud (transposed before the region). -/
abbrev R (c : Dev nD) : Cert.Spec.Cloud := Cert.Spec.cloud (m ((c : Thread nD τ).loc main_arg0))

variable (c : Dev nD) (t : Fin cfg0.N)

theorem sq_tile (a : Fin 1024) (u : Fin 1) :
    k0_pay3 (F := Ideal) (iblk m c 0 t) (ix2 a u) = Cert.Spec.sq (P m c) (Cert.Spec.row (Cert.Spec.tileOf t.val) a) :=
  (PayAt.sqRow (iblk m c 0 t) a u).trans (Finset.sum_congr rfl fun k _ => by rw [Tiles.tile_entry])

theorem sq_second (u : Fin 1) (j : Fin 8192) :
    k0_pay5 (F := Ideal) (iblk m c 1 t) (ix2 u j) = Cert.Spec.sq (R m c) j :=
  (PayAt.sqCol (iblk m c 1 t) u j).trans (Finset.sum_congr rfl fun k _ => by rw [Tiles.second_entry])

theorem cross_tile (a : Fin 1024) (j : Fin 8192) :
    k0_pay6 (F := Ideal) (iblk m c 0 t) (iblk m c 1 t) (ix2 a j)
      = Cert.Spec.cross (P m c) (R m c) (Cert.Spec.row (Cert.Spec.tileOf t.val) a) j :=
  (PayAt.crossAt (iblk m c 0 t) (iblk m c 1 t) a j).trans
    (Finset.sum_congr rfl fun k _ => by rw [Tiles.tile_entry, Tiles.second_entry])

/-- A tile's nearest distances. -/
theorem rowNN_tile (a : Fin 1024) (u : Fin 1) :
    k0_pay10 (F := Ideal) (iblk m c 0 t) (iblk m c 1 t) (ix2 a u)
      = Cert.Spec.rowNN (P m c) (R m c) (Cert.Spec.row (Cert.Spec.tileOf t.val) a) := by
  rw [PayAt.rowNNAt, sq_tile]
  unfold Cert.Spec.rowNN
  congr 3
  exact congrArg Cert.Spec.minOver (funext fun j => by rw [cross_tile, sq_second])

/-- A tile's candidates for the second cloud's squared nearest distances. -/
theorem tileCol_tile (u : Fin 1) (j : Fin 8192) :
    k0_pay7 (F := Ideal) (iblk m c 0 t) (iblk m c 1 t) (ix2 u j)
      = Cert.Spec.tileCol (P m c) (R m c) (Cert.Spec.tileOf t.val) j := by
  rw [PayAt.tileColAt, sq_second]
  unfold Cert.Spec.tileCol
  congr 1
  exact congrArg Cert.Spec.minOver (funext fun a => by rw [cross_tile, sq_tile])

/-! ## The carried buffers are the specification's running quantities -/

/-- The running sums after position `n`, row by row. -/
theorem sums_eq : ∀ (n : ℕ) (h : n < cfg0.N) (a : Fin 1024) (u : Fin 1),
    sums m c n h (ix2 a u) = Cert.Spec.rowAcc (P m c) (R m c) n a
  | 0, h, a, u => by
    show k0_pay11 (F := Ideal) (iblk m c 0 ⟨0, h⟩) (iblk m c 1 ⟨0, h⟩) (ix2 a u) = _
    rw [PayAt.pay11_eq, rowNN_tile]
    rfl
  | n + 1, h, a, u => by
    show k0_pay1 (F := Ideal) (k0_pay10 (iblk m c 0 ⟨n + 1, h⟩) (iblk m c 1 ⟨n + 1, h⟩)) (sums m c n _) (ix2 a u) = _
    rw [PayAt.pay1_at, sums_eq n _ a u, rowNN_tile]
    rfl

/-- The running minima after position `n`, point by point of the real cloud. -/
theorem mins_eq : ∀ (n : ℕ) (h : n < cfg0.N) (u : Fin 1) (j : Fin 8192),
    mins m c n h (ix2 u j) = Cert.Spec.colAcc (P m c) (R m c) n j
  | 0, h, u, j => by
    show k0_pay8 (F := Ideal) (iblk m c 0 ⟨0, h⟩) (iblk m c 1 ⟨0, h⟩) (ix2 u j) = _
    rw [PayAt.pay8_eq, tileCol_tile]
    rfl
  | n + 1, h, u, j => by
    show k0_pay9 (F := Ideal) (iblk m c 0 ⟨n + 1, h⟩) (iblk m c 1 ⟨n + 1, h⟩) (mins m c n _) (ix2 u j) = _
    rw [PayAt.pay9_at, mins_eq n _ u j, tileCol_tile]
    rfl

/-! ## The result -/

/-- The result block's entry: the tiled arrangement's two totals, added and divided by the number of points. -/
theorem result_eq (u u' : Fin 1) :
    result m c (ix2 u u') = Ideal.div (Cert.Spec.kerTotal (P m c) (R m c)) Cert.Spec.cnt := by
  show k0_pay2 (F := Ideal) (mins m c 7 lastLt) (sums m c 7 lastLt) (ix2 u u') = _
  rw [PayAt.resultAt]
  have e1 : (∑ a : Fin 1024, sums m c 7 lastLt (ix2 a (0 : Fin 1))) = ∑ a : Fin 1024, Cert.Spec.rowAcc (P m c) (R m c) 7 a :=
    Finset.sum_congr rfl fun a _ => sums_eq m c 7 lastLt a 0
  have e2 : (∑ j : Fin 8192, Ideal.sqrt (max (mins m c 7 lastLt (ix2 (0 : Fin 1) j)) Cert.Spec.eps))
      = ∑ j : Fin 8192, Ideal.sqrt (max (Cert.Spec.colAcc (P m c) (R m c) 7 j) Cert.Spec.eps) :=
    Finset.sum_congr rfl fun j _ => by rw [mins_eq m c 7 lastLt 0 j]
  rw [e1, e2]
  rfl

/-- The scalar @main returns is that entry. -/
theorem scalar_eq : scalar m c = fun _ => Ideal.div (Cert.Spec.kerTotal (P m c) (R m c)) Cert.Spec.cnt := by
  funext i
  refine (shapeCast_apply (result m c) shapeCasts_S1x1_S_ i (ix2 (0 : Fin 1) (0 : Fin 1)) ?_).trans (result_eq m c 0 0)
  show (S1x1.rowMajor (ix2 (0 : Fin 1) (0 : Fin 1))).val = (S_.rowMajor i).val
  have h1 : (S1x1.rowMajor (ix2 (0 : Fin 1) (0 : Fin 1))).val = 0 := by rw [Shape.rowMajor_val_two]; rfl
  have h2 : (S_.rowMajor i).val = 0 := Shape.rowMajorPi_zero _ _
  rw [h1, h2]

end Cert.KernelIdeal.Values

end
-- ==== Proof.RefIsSpec.lean ====
/-
  The reference program computes the reference arrangement of the average symmetric surface distance.

  Its run is read one operation at a time by the generated module this file imports. Here every stage is read at an
  index given by its coordinates: the squared norms |A a|² as sums over the three coordinates, the inner products
  A a · B b, the clamped squared distance max (|A a|² + |B b|² − 2·(A a · B b)) ε at a pair (a, b), its minimum over
  b folded from +∞, the square root of that minimum, the sum of the 8192 nearest distances, and the quotient of the
  two sums by the number of points. The second nearest-neighbour pass is the first with the two clouds exchanged,
  term for term, so every stage is stated once.
-/
import proofs.«152558_g26491358282344_cont_9to1_1100_13_alg».proof.Proof.Gen.ReferenceIdeal.Read
import proofs.«152558_g26491358282344_cont_9to1_1100_13_alg».proof.Proof.Spec
import Idealize.ShloMosaic.PureOps.Reduce
import Idealize.ShloMosaic.PureOps.Ideal.Laws
import Idealize.ShloMosaic.Lib.ValueIdx

noncomputable section

namespace Cert.RefValue

open Idealize.ShloMosaic Idealize.ShloMosaic.ValueIdx
open Cert.ReferenceIdeal Cert.ReferenceIdeal.Gen Cert.ReferenceIdeal.Read
open Cert.Spec (Cloud cloud sq dot refSq refNN refTotal minOver two eps inf32 cnt)

/-- An 8192 × 3 array of extended reals. -/
abbrev Arr : Type := (⟨S8192x3, .f32⟩ : BufTy).Contents (Elt Ideal)

/-! ## The squared norms -/

/-- The sum of the squares of the three coordinates of point a, folded from the zero word, is |A a|². -/
theorem sqnorm_at (x : Arr) (a : Fin 8192) :
    val_main_v1 (F := Ideal) x (ix1 a) = sq (cloud x) a := by
  rw [val_main_v1_apply, val_main_cst_apply, Ideal.ofBits_def, Ideal.ofBits_zero_f32, zero_add]
  unfold Cert.Spec.sq
  refine Finset.sum_congr rfl fun k _ => ?_
  have e : idx_main_v1 (ix1 a) k = ix2 a k :=
    funext fun d => Fin.ext (by match d with | ⟨0, _⟩ => rfl | ⟨1, _⟩ => rfl)
  rw [val_main_v0_apply, e]
  rfl

/-- The same sum as the program forms it a second time, for the other operand of the first pass. -/
theorem sqnorm_at' (x : Arr) (b : Fin 8192) :
    val_main_v4 (F := Ideal) x (ix1 b) = sq (cloud x) b :=
  sqnorm_at x b

/-! ## The sum of the two squared norms at a pair -/

/-- |P a|² spread along the rows plus |R b|² spread along the columns, at (a, b). -/
theorem sqsum_at (x0 x1 : Arr) (a b : Fin 8192) :
    val_main_v8 (F := Ideal) x0 x1 (ix2 a b) = sq (cloud x1) a + sq (cloud x0) b := by
  rw [val_main_v8_apply, val_main_v6_apply, val_main_v2_apply, val_main_v7_apply, val_main_v5_apply]
  have e1 : idx_main_v2 (idx_main_v6 (ix2 a b)) = ix1 a :=
    funext fun d => Fin.ext (by match d with | ⟨0, _⟩ => rfl)
  have e2 : idx_main_v5 (idx_main_v7 (ix2 a b)) = ix1 b :=
    funext fun d => Fin.ext (by match d with | ⟨0, _⟩ => rfl)
  rw [e1, e2, sqnorm_at, sqnorm_at']
  rfl

/-! ## The inner products -/

/-- The contraction of P with the transpose of R over the three coordinates, at (a, b), is P a · R b. -/
theorem dot_at (x0 x1 : Arr) (a b : Fin 8192) :
    val_main_v10 (F := Ideal) x0 x1 (ix2 a b) = dot (cloud x1) (cloud x0) a b := by
  rw [val_main_v10_apply]
  unfold Cert.Spec.dot
  refine Finset.sum_congr rfl fun k _ => ?_
  have el : lidx_main_v10 (ix2 a b) k = ix2 a k :=
    funext fun d => Fin.ext (by match d with | ⟨0, _⟩ => rfl | ⟨1, _⟩ => rfl)
  have er : idx_main_v9 (ridx_main_v10 (ix2 a b) k) = ix2 b k :=
    funext fun d => Fin.ext (by match d with | ⟨0, _⟩ => rfl | ⟨1, _⟩ => rfl)
  rw [val_main_v9_apply, el, er]
  rfl

/-! ## The clamped squared distance at a pair -/

/-- max (|P a|² + |R b|² − 2·(P a · R b)) ε at (a, b). -/
theorem clamped_at (x0 x1 : Arr) (a b : Fin 8192) :
    val_main_v15 (F := Ideal) x0 x1 (ix2 a b) = refSq (cloud x1) (cloud x0) a b := by
  rw [val_main_v15_apply, val_main_v13_apply, val_main_v12_apply, val_main_v14_apply, val_main_v11_apply,
    val_main_cst_1_apply, val_main_cst_2_apply, sqsum_at, dot_at]
  rfl

/-! ## The nearest point: the minimum over the second cloud -/

/-- The index over a with coordinate k put back on the folded axis is (a, k). -/
theorem lift_pair (h : S8192x8192.Reduces [1] S8192) (a : Fin 8192) (k : Fin (S8192x8192.size 1)) :
    h.lift (ix1 a) k = ix2 a (⟨k.val, k.isLt⟩ : Fin 8192) := by
  funext c; apply Fin.ext
  match c with
  | ⟨0, _⟩ => rfl
  | ⟨1, _⟩ => rfl

/-- Folded from +∞ over the second cloud, the clamped squared distances from P a give the least of them. -/
theorem nearestSq_at (x0 x1 : Arr) (a : Fin 8192) :
    val_main_v16 (F := Ideal) x0 x1 (ix1 a) = minOver fun b => refSq (cloud x1) (cloud x0) a b := by
  have h : S8192x8192.Reduces [1] S8192 := by decide
  unfold val_main_v16
  refine (Host.reduce_eq_fold_single (FloatOps.minimumf (F := Ideal) (φ := .f32)) (val_main_v15 (F := Ideal) x0 x1)
    (val_main_cst_3 (F := Ideal)) reducesTo_S8192x8192_S8192_d1 h h_S_ (ix1 a)).trans ?_
  have hf : (val_main_v15 (F := Ideal) x0 x1 ∘ h.lift (ix1 a))
      = fun b : Fin 8192 => refSq (cloud x1) (cloud x0) a b :=
    funext fun k => (congrArg (val_main_v15 (F := Ideal) x0 x1) (lift_pair h a k)).trans (clamped_at x0 x1 a _)
  exact congrArg (fun f => Finset.fold min inf32 f (Finset.univ : Finset (Fin 8192))) hf

/-- The distance from P a to the nearest point of R. -/
theorem nearest_at (x0 x1 : Arr) (a : Fin 8192) :
    val_main_v17 (F := Ideal) x0 x1 (ix1 a) = refNN (cloud x1) (cloud x0) a := by
  rw [val_main_v17_apply, nearestSq_at]
  rfl

/-! ## The sum of the nearest distances -/

/-- A one-axis index set of 8192 entries is its coordinate's range. -/
def idxEquiv1 : S8192.Idx ≃ Fin 8192 where
  toFun i := i 0
  invFun a := ix1 a
  left_inv i := (eq_ix1 i).symm
  right_inv _ := rfl

/-- The nearest distances of the points of P, summed from the zero word. -/
theorem pass_sum (x0 x1 : Arr) (i : S_.Idx) :
    val_main_v36 (F := Ideal) x0 x1 i = ∑ a : Fin 8192, refNN (cloud x1) (cloud x0) a := by
  rw [val_main_v36_apply, val_main_cst_9_apply, Ideal.ofBits_def, Ideal.ofBits_zero_f32, zero_add]
  refine Fintype.sum_equiv idxEquiv1 _ _ fun j => ?_
  obtain ⟨a, rfl⟩ : ∃ a : Fin 8192, j = ix1 a := ⟨j 0, eq_ix1 j⟩
  exact nearest_at x0 x1 a

/-- The second pass is the first with the two clouds exchanged, operation for operation. -/
theorem pass_swap (x0 x1 : Arr) :
    val_main_v37 (F := Ideal) x0 x1 = val_main_v36 (F := Ideal) x1 x0 := rfl

/-! ## The result -/

/-- The reference's result: both sums of nearest distances, added and divided by the number of points. -/
theorem result_eq (x0 x1 : (⟨Cert.ReferenceIdeal.S8192x3, .f32⟩ : BufTy).Contents (Elt Ideal)) :
    Cert.ReferenceIdeal.Read.val_main_v39 (F := Ideal) x0 x1
      = fun _ => Ideal.div (Cert.Spec.refTotal (Cert.Spec.cloud x0) (Cert.Spec.cloud x1)) Cert.Spec.cnt := by
  funext i
  rw [val_main_v39_apply, val_main_v38_apply, pass_swap, pass_sum x0 x1 i, pass_sum x1 x0 i,
    val_main_cst_11_apply]
  rfl

end Cert.RefValue

end
-- ==== Proof.SpecLaw.lean ====
/-
  The two arrangements of the average symmetric surface distance agree on clouds of real numbers.

  Write a = |P i|², b = |R j|², d = P i · R j (all real). The reference forms max (a + b − 2·d) ε per pair and
  takes the minimum over the other cloud; the tiled arrangement forms the cross term c = Σ (−2·P i k)·R j k = −2·d
  once, takes the minimum of c + b (or c + a) and adds the remaining square afterwards, clamps after the minimum,
  and reaches the minimum over all 8192 points as a running minimum over eight blocks of 1024, the sum over all
  8192 points as 1024 running sums over the eight blocks. Three facts carry the proof:
  * adding a real number and clamping from below by ε are monotone, so they commute with a finite minimum
    (the minimum is folded from +∞, and +∞ plus a real is +∞, max +∞ ε = +∞);
  * a + b − 2·d = c + b + a = c + a + b in ℝ, and the extended reals contain ℝ as a subring where all of it is computed;
  * every index below 8192 is uniquely 1024·t + a with t < 8 and a < 1024, so a minimum (a sum) over the eight
    blocks is the minimum (the sum) over all indices.
-/
import proofs.«152558_g26491358282344_cont_9to1_1100_13_alg».proof.Proof.Spec
import Mathlib

noncomputable section

namespace Cert.Spec

open Idealize.ShloMosaic

/-! ## The literals -/

/-- The word for +∞ denotes ⊤. -/
theorem inf32_eq : inf32 = ⊤ := by
  simp [inf32, Ideal.ofBits, Ideal.ieee]

/-- The word for 2 denotes the real 2. -/
theorem two_eq : two = ((2 : ℝ) : EReal) := by
  simp [two, Ideal.ofBits, Ideal.ieee, -EReal.coe_mul]; norm_num

/-- The word for −2 denotes the real −2. -/
theorem negTwo_eq : negTwo = ((-2 : ℝ) : EReal) := by
  simp [negTwo, Ideal.ofBits, Ideal.ieee, -EReal.coe_mul]; norm_num

/-! ## The folded minimum -/

/-- The universal property: a lower bound of the folded minimum is a lower bound of every term. -/
theorem le_minOver_iff {n : ℕ} (f : Fin n → EReal) (c : EReal) : c ≤ minOver f ↔ ∀ i, c ≤ f i := by
  unfold minOver
  rw [Finset.le_fold_min, inf32_eq]
  simp

/-- Two folded minima with the same lower bounds are equal. -/
theorem minOver_congr {n : ℕ} {f g : Fin n → EReal} (h : ∀ i, f i = g i) : minOver f = minOver g := by
  have : f = g := funext h
  rw [this]

/-- Adding a real number commutes with the folded minimum. -/
theorem minOver_add_coe {n : ℕ} (f : Fin n → EReal) (c : ℝ) :
    minOver (fun i => f i + (c : EReal)) = minOver f + (c : EReal) := by
  unfold minOver
  have h := Finset.fold_hom (op := min) (op' := min) (m := fun x : EReal => x + (c : EReal))
    (b := inf32) (s := (Finset.univ : Finset (Fin n))) (f := f)
    (fun x y => (Monotone.map_min (f := fun z : EReal => z + (c : EReal)) (fun a b hab => add_le_add hab le_rfl)))
  rw [← h, inf32_eq, EReal.top_add_coe]

/-- Clamping from below commutes with the folded minimum. -/
theorem minOver_max {n : ℕ} (f : Fin n → EReal) (e : EReal) :
    minOver (fun i => max (f i) e) = max (minOver f) e := by
  unfold minOver
  have h := Finset.fold_hom (op := min) (op' := min) (m := fun x : EReal => max x e)
    (b := inf32) (s := (Finset.univ : Finset (Fin n))) (f := f)
    (fun x y => max_min_distrib_right x y e)
  rw [← h, inf32_eq, max_eq_left le_top]

/-! ## Clouds of real numbers -/

/-- The cloud of extended reals which a cloud of real numbers denotes. -/
def ofReal (p : Fin 8192 → Fin 3 → ℝ) : Cloud := fun a k => ((p a k : ℝ) : EReal)

/-- A cloud of real numbers is the image of a real cloud. -/
theorem Finite.exists_ofReal {A : Cloud} (h : Finite A) : ∃ p, A = ofReal p := by
  choose p hp using h
  exact ⟨p, funext fun a => funext fun k => hp a k⟩

/-- |p a|² in ℝ. -/
def sqR (p : Fin 8192 → Fin 3 → ℝ) (a : Fin 8192) : ℝ := ∑ k : Fin 3, p a k * p a k
/-- Σ (−2·p i k)·r j k in ℝ. -/
def crossR (p r : Fin 8192 → Fin 3 → ℝ) (i j : Fin 8192) : ℝ := ∑ k : Fin 3, (-2 * p i k) * r j k

/-- The square of a real point is real. -/
theorem sq_ofReal (p : Fin 8192 → Fin 3 → ℝ) (a : Fin 8192) :
    sq (ofReal p) a = ((sqR p a : ℝ) : EReal) := by
  simp only [sq, sqR, ofReal, Fin.sum_univ_three, EReal.coe_add, EReal.coe_mul]

/-- The cross term of two real points is real. -/
theorem cross_ofReal (p r : Fin 8192 → Fin 3 → ℝ) (i j : Fin 8192) :
    cross (ofReal p) (ofReal r) i j = ((crossR p r i j : ℝ) : EReal) := by
  simp only [cross, crossR, ofReal, negTwo_eq, Fin.sum_univ_three, EReal.coe_add, EReal.coe_mul]

/-- The inner product of two real points is real. -/
theorem dot_ofReal (p r : Fin 8192 → Fin 3 → ℝ) (i j : Fin 8192) :
    dot (ofReal p) (ofReal r) i j = ((∑ k : Fin 3, p i k * r j k : ℝ) : EReal) := by
  simp only [dot, ofReal, Fin.sum_univ_three, EReal.coe_add, EReal.coe_mul]

/-- |p i|² + |r j|² − 2·(p i · r j) = Σ (−2·p i k)·r j k + |r j|² + |p i|². -/
theorem dist_ofReal (p r : Fin 8192 → Fin 3 → ℝ) (i j : Fin 8192) :
    (sq (ofReal p) i + sq (ofReal r) j) - two * dot (ofReal p) (ofReal r) i j
      = ((crossR p r i j + sqR r j + sqR p i : ℝ) : EReal) := by
  rw [sq_ofReal, sq_ofReal, dot_ofReal, two_eq, ← EReal.coe_add, ← EReal.coe_mul, ← EReal.coe_sub]
  congr 1
  simp only [crossR, sqR, Fin.sum_univ_three]
  ring

/-- The same with the roles of the clouds exchanged: |r j|² + |p i|² − 2·(r j · p i) = Σ (−2·p i k)·r j k + |p i|² + |r j|². -/
theorem dist_ofReal' (p r : Fin 8192 → Fin 3 → ℝ) (i j : Fin 8192) :
    (sq (ofReal r) j + sq (ofReal p) i) - two * dot (ofReal r) (ofReal p) j i
      = ((crossR p r i j + sqR p i + sqR r j : ℝ) : EReal) := by
  rw [sq_ofReal, sq_ofReal, dot_ofReal, two_eq, ← EReal.coe_add, ← EReal.coe_mul, ← EReal.coe_sub]
  congr 1
  simp only [crossR, sqR, Fin.sum_univ_three]
  ring

/-! ## The first cloud's nearest distances -/

/-- Per point of the first cloud the two arrangements form the same nearest distance. -/
theorem rowNN_eq_refNN (p r : Fin 8192 → Fin 3 → ℝ) (i : Fin 8192) :
    rowNN (ofReal p) (ofReal r) i = refNN (ofReal p) (ofReal r) i := by
  have h1 : ∀ j, refSq (ofReal p) (ofReal r) i j
      = max ((cross (ofReal p) (ofReal r) i j + sq (ofReal r) j) + sq (ofReal p) i) eps := by
    intro j
    unfold refSq
    rw [dist_ofReal, cross_ofReal, sq_ofReal, sq_ofReal, ← EReal.coe_add, ← EReal.coe_add]
  unfold rowNN refNN
  rw [minOver_congr h1, minOver_max, sq_ofReal p i, minOver_add_coe]

/-! ## Eight blocks of 1024 cover the 8192 indices -/

/-- Every index is the row of its block at its offset. -/
theorem row_div_mod (i : Fin 8192) :
    row ⟨i.val / 1024, by omega⟩ ⟨i.val % 1024, Nat.mod_lt _ (by decide)⟩ = i := by
  apply Fin.ext
  simp only [row]
  omega

/-- Below eight, a grid position names the block of the same number. -/
theorem tileOf_of_lt {n : ℕ} (h : n < 8) : tileOf n = ⟨n, h⟩ := by
  apply Fin.ext
  simp only [tileOf]
  omega

/-- Block and offset against index, as a bijection. -/
def rowEquiv : Fin 8 × Fin 1024 ≃ Fin 8192 where
  toFun x := row x.1 x.2
  invFun i := (⟨i.val / 1024, by omega⟩, ⟨i.val % 1024, Nat.mod_lt _ (by decide)⟩)
  left_inv x := by
    rcases x with ⟨t, a⟩
    apply Prod.ext <;> apply Fin.ext <;> simp only [row] <;> omega
  right_inv i := row_div_mod i

/-! ## The second cloud's nearest distances: the running minimum -/

/-- The lower bounds of one block's candidate. -/
theorem le_tileCol_iff (p r : Fin 8192 → Fin 3 → ℝ) (t : Fin 8) (j : Fin 8192) (c : EReal) :
    c ≤ tileCol (ofReal p) (ofReal r) t j ↔
      ∀ a : Fin 1024, c ≤ cross (ofReal p) (ofReal r) (row t a) j + sq (ofReal p) (row t a) + sq (ofReal r) j := by
  unfold tileCol
  rw [sq_ofReal r j, ← minOver_add_coe, le_minOver_iff]

/-- The lower bounds of the running minimum after position `n` are the common lower bounds of the blocks up to `n`. -/
theorem le_colAcc_iff (P R : Cloud) (j : Fin 8192) (c : EReal) :
    ∀ n, n < 8 → (c ≤ colAcc P R n j ↔ ∀ t : Fin 8, t.val ≤ n → c ≤ tileCol P R t j)
  | 0, h0 => by
    simp only [colAcc]
    rw [tileOf_of_lt h0]
    constructor
    · intro h t ht
      have : t = ⟨0, h0⟩ := Fin.ext (by simp only; omega)
      rw [this]; exact h
    · intro h; exact h _ (le_refl _)
  | n + 1, hn => by
    simp only [colAcc, le_min_iff]
    rw [le_colAcc_iff P R j c n (by omega), tileOf_of_lt hn]
    constructor
    · rintro ⟨h1, h2⟩ t ht
      rcases Nat.lt_or_ge t.val (n + 1) with h | h
      · exact h1 t (by omega)
      · have : t = ⟨n + 1, hn⟩ := Fin.ext (by simp only; omega)
        rw [this]; exact h2
    · intro h
      exact ⟨fun t ht => h t (by omega), h _ (le_refl _)⟩

/-- After the last position the running minimum is the minimum over all points of the first cloud. -/
theorem colAcc_seven (p r : Fin 8192 → Fin 3 → ℝ) (j : Fin 8192) :
    colAcc (ofReal p) (ofReal r) 7 j
      = minOver (fun i => cross (ofReal p) (ofReal r) i j + sq (ofReal p) i + sq (ofReal r) j) := by
  apply eq_of_forall_le_iff
  intro c
  rw [le_colAcc_iff _ _ _ _ 7 (by decide), le_minOver_iff]
  constructor
  · intro h i
    have h2 := (le_tileCol_iff p r ⟨i.val / 1024, by omega⟩ j c).1 (h _ (by simp only; omega))
      ⟨i.val % 1024, Nat.mod_lt _ (by decide)⟩
    rwa [row_div_mod] at h2
  · intro h t _
    rw [le_tileCol_iff]
    intro a
    exact h (row t a)

/-- Per point of the second cloud the two arrangements form the same nearest distance. -/
theorem col_eq_refNN (p r : Fin 8192 → Fin 3 → ℝ) (j : Fin 8192) :
    Ideal.sqrt (max (colAcc (ofReal p) (ofReal r) 7 j) eps) = refNN (ofReal r) (ofReal p) j := by
  have h1 : ∀ i, refSq (ofReal r) (ofReal p) j i
      = max (cross (ofReal p) (ofReal r) i j + sq (ofReal p) i + sq (ofReal r) j) eps := by
    intro i
    unfold refSq
    rw [dist_ofReal', cross_ofReal, sq_ofReal, sq_ofReal, ← EReal.coe_add, ← EReal.coe_add]
  unfold refNN
  rw [minOver_congr h1, minOver_max, colAcc_seven]

/-! ## The first cloud's nearest distances: the running sums -/

/-- The running sum after position `n` is the sum of the rows of the blocks up to `n`. -/
theorem rowAcc_eq (P R : Cloud) (a : Fin 1024) :
    ∀ n, rowAcc P R n a = ∑ t ∈ Finset.range (n + 1), rowNN P R (row (tileOf t) a)
  | 0 => by simp only [rowAcc, zero_add, Finset.range_one, Finset.sum_singleton]
  | n + 1 => by
    rw [Finset.sum_range_succ, ← rowAcc_eq P R a n]
    simp only [rowAcc]

/-- After the last position each running sum is the sum of its row over the eight blocks. -/
theorem rowAcc_seven (P R : Cloud) (a : Fin 1024) :
    rowAcc P R 7 a = ∑ t ∈ Finset.range 8, rowNN P R (row (tileOf t) a) :=
  rowAcc_eq P R a 7

/-- A sum over offsets of sums over the eight blocks is the sum over all indices. -/
theorem sum_blocks (F : Fin 8192 → EReal) :
    ∑ a : Fin 1024, ∑ t ∈ Finset.range 8, F (row (tileOf t) a) = ∑ i : Fin 8192, F i := by
  rw [Finset.sum_comm, Finset.sum_range,
    ← Fintype.sum_equiv rowEquiv (fun x => F (row x.1 x.2)) F (fun _ => rfl), Fintype.sum_prod_type]
  apply Finset.sum_congr rfl
  intro t _
  have ht : tileOf t.val = t := Fin.ext (Nat.mod_eq_of_lt t.2)
  rw [ht]

/-! ## The totals -/

/-- On clouds of real numbers the tiled arrangement and the reference's arrangement give the same total. -/
theorem kerTotal_eq_refTotal (P R : Cloud) (hP : Finite P) (hR : Finite R) : kerTotal P R = refTotal R P := by
  obtain ⟨p, rfl⟩ := hP.exists_ofReal
  obtain ⟨r, rfl⟩ := hR.exists_ofReal
  have hrow : ∑ a : Fin 1024, rowAcc (ofReal p) (ofReal r) 7 a
      = ∑ i : Fin 8192, refNN (ofReal p) (ofReal r) i := by
    simp only [rowAcc_seven]
    rw [sum_blocks]
    exact Finset.sum_congr rfl fun i _ => rowNN_eq_refNN p r i
  have hcol : ∑ j : Fin 8192, Ideal.sqrt (max (colAcc (ofReal p) (ofReal r) 7 j) eps)
      = ∑ j : Fin 8192, refNN (ofReal r) (ofReal p) j :=
    Finset.sum_congr rfl fun j _ => col_eq_refNN p r j
  unfold kerTotal refTotal
  rw [hrow, hcol]

end Cert.Spec

end
-- ==== Proof.FiniteInputs.lean ====
/-
  Under the precondition both clouds are clouds of real numbers.

  The precondition is a function of the two argument arrays: for each array the bit "|x| < +∞" at every entry, all
  of an array's bits joined by "and" from the constant 1, and the two joins joined by "and"; it is supposed to be 1.
  Read back: each of the two joins is 1; a join of bits from 1 that is 1 met only 1s; the bit at an entry is 1
  exactly when max x (−x) lies strictly below what the float word for +∞ denotes, which is ⊤; and an extended real
  with max x (−x) < ⊤ is neither ⊤ nor ⊥, hence a real number.
-/
import proofs.«152558_g26491358282344_cont_9to1_1100_13_alg».proof.Defs
import proofs.«152558_g26491358282344_cont_9to1_1100_13_alg».proof.Proof.Spec
import Idealize.ShloMosaic.Lib.ReduceAll
import Idealize.ShloMosaic.Lib.Pipeline.Value
import Idealize.ShloMosaic.Lib.ValueIdx

noncomputable section

namespace Cert.FiniteInputs

open Idealize.ShloMosaic Idealize.ShloMosaic.ValueIdx Idealize.SL.Sem

/-- An extended real whose absolute value max x (−x) lies strictly below ⊤ is a real number. -/
theorem real_of_abs_lt_top (x : EReal) (h : max x (-x) < ⊤) : ∃ r : ℝ, x = (r : EReal) := by
  induction x using EReal.rec with
  | bot => simp at h
  | coe r => exact ⟨r, rfl⟩
  | top => simp at h

/-- The float word for +∞ denotes ⊤. -/
theorem inf_word : Ideal.ofBits .f32 0x7F800000#32 = (⊤ : EReal) := by simp [Ideal.ofBits, Ideal.ieee]

/-- The comparison bit "x < y" is 1 only when x < y. -/
theorem lt_of_cmp_olt (x y : EReal) (h : Ideal.cmp .olt x y = 1#1) : x < y := by
  by_contra hn
  have h0 : Ideal.cmp .olt x y = 0#1 := by simp [Ideal.cmp, hn]
  rw [h0] at h
  exact absurd h (by decide)

/-- The scalar shape has one index. -/
instance : Subsingleton Cert.Pre_finite_inputs.S_.Idx := ⟨fun _ _ => funext fun d => d.elim0⟩

variable [hP : Cert.Pre_finite_inputs.Facts]

open Cert.Pre_finite_inputs Cert.Pre_finite_inputs.Facts in
/-- Where the join over all entries of the bits "|x| < +∞" is 1, every entry of the array is a real number. -/
theorem finite_of_all (x : FVec Ideal S8192x3 .f32)
    (e : Host.reduce IntOp.andi
        (cmpf .olt (Host.absf x) (broadcastInDim S8192x3 ![] bcast_S_S8192x3 (constant (F := Ideal) S_ .f32 0x7F800000#32)))
        (constantI S_ 1 1#1) reducesTo_S8192x3_S_d0_1 h_S_ ix0 = 1#1) :
    Cert.Spec.Finite (Cert.Spec.cloud x) := by
  intro a k
  have hi := Host.reduce_andi_all _ _ _ _ _ e (ix2 a k)
  have hb : broadcastInDim S8192x3 ![] bcast_S_S8192x3 (constant (F := Ideal) S_ .f32 0x7F800000#32) (ix2 a k)
      = (⊤ : EReal) :=
    (broadcastInDim_apply _ bcast_S_S8192x3 _ (ix2 a k) ix0 (fun d => d.elim0)).trans inf_word
  have hc : Ideal.cmp .olt (max (x (ix2 a k)) (-(x (ix2 a k)))) ⊤ = 1#1 := by
    rw [← hb]; exact hi
  exact real_of_abs_lt_top _ (lt_of_cmp_olt _ _ hc)

/-- Under the precondition of the idealized kernel both argument arrays, read as clouds, are clouds of real numbers. -/
theorem finite_of_pre
    (m : (ℓ : Loc Cert.KernelIdeal.nD Cert.KernelIdeal.τ Cert.KernelIdeal.sig) → Buf (Elt Ideal) ℓ)
    (h : Cert.Pre_KernelIdeal m) (c : Dev Cert.KernelIdeal.nD) :
    Cert.Spec.Finite (Cert.Spec.cloud (m ((c.tc : Thread Cert.KernelIdeal.nD Cert.KernelIdeal.τ).loc Cert.KernelIdeal.main_arg0)))
      ∧ Cert.Spec.Finite (Cert.Spec.cloud (m ((c.tc : Thread Cert.KernelIdeal.nD Cert.KernelIdeal.τ).loc Cert.KernelIdeal.main_arg1))) := by
  have e := congrFun (h c) ix0
  dsimp only [Cert.Pre_finite_inputs.fn] at e
  obtain ⟨e0, e1⟩ := IntOp.andi_eq_one.1 e
  exact ⟨finite_of_all _ e0, finite_of_all _ e1⟩

end Cert.FiniteInputs

end
-- ==== Proof.Claims.lean ====
/-
  The five claims. The three frames are the generated frame runs (the reference's is its generated run with the
  result dropped); the idealization rewrote nothing, so `preserves` is trivial. For `algebraic`: the idealized
  kernel ends with the tiled arrangement of the average symmetric surface distance of its two argument clouds
  divided by the number of points, the idealized reference with the reference arrangement of the same; the
  precondition makes both clouds real, and on real clouds the two arrangements are one number.
-/
import proofs.«152558_g26491358282344_cont_9to1_1100_13_alg».proof.Defs
import proofs.«152558_g26491358282344_cont_9to1_1100_13_alg».proof.Proof.Gen.Kernel.Frame
import proofs.«152558_g26491358282344_cont_9to1_1100_13_alg».proof.Proof.Gen.KernelIdeal.Frame
import proofs.«152558_g26491358282344_cont_9to1_1100_13_alg».proof.Proof.Gen.Pre_finite_inputs
import proofs.«152558_g26491358282344_cont_9to1_1100_13_alg».proof.Proof.Gen.ReferenceIdeal.Run
import proofs.«152558_g26491358282344_cont_9to1_1100_13_alg».proof.Proof.Gen.ReferenceIdeal.Read
import proofs.«152558_g26491358282344_cont_9to1_1100_13_alg».proof.Proof.Values
import proofs.«152558_g26491358282344_cont_9to1_1100_13_alg».proof.Proof.RefIsSpec
import proofs.«152558_g26491358282344_cont_9to1_1100_13_alg».proof.Proof.SpecLaw
import proofs.«152558_g26491358282344_cont_9to1_1100_13_alg».proof.Proof.FiniteInputs

noncomputable section

open Idealize.ShloMosaic Idealize.ShloMosaic.TcCoe Idealize.SL.Sem

namespace Cert.Proof.Claims

theorem frame_p : Cert.frame_Kernel := fun m ρ _ => Cert.Kernel.Gen.frame m ρ
theorem frame_pi : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The idealization pass rewrote no operation. -/
theorem preserves : Cert.preserves_Kernel_KernelIdeal := trivial

/-- Both idealized programs end with the same extended real: the kernel's tiled arrangement and the reference's
    arrangement agree on clouds of real numbers, which the precondition provides. -/
theorem algebraic : Cert.algebraic_KernelIdeal_ReferenceIdeal := by
  intro m ρ m' ρ' hpre hagree
  refine ⟨fun c => Cert.KernelIdeal.KernelRun.scalar m c, Cert.KernelIdeal.KernelRun.run (F := Ideal) m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v39_eq (F := Ideal) _ _).trans ?_
  rw [Cert.RefValue.result_eq, (hagree c).1, (hagree c).2]
  refine Eq.trans ?_ (Cert.KernelIdeal.Values.scalar_eq m c).symm
  have hf := Cert.FiniteInputs.finite_of_pre m hpre c
  funext _
  exact congrArg (fun z => Ideal.div z Cert.Spec.cnt) (Cert.Spec.kerTotal_eq_refTotal _ _ hf.2 hf.1).symm

end Cert.Proof.Claims

end
-- ==== Proof.lean ====
/-
  The certificate: a fused kernel for the average symmetric surface distance of two clouds of 8192 points —
  one pass over tiles of 1024 predicted points against all real points, forming both directed nearest-neighbour
  distance sets from ONE cross term, with running minima and running sums carried between grid positions —
  against the plain reference that forms the two squared-distance matrices separately. Over the extended reals,
  on finite inputs, both compute the same number; the modules under Proof/ say why, piece by piece:
  Spec (both arrangements as definitions), SpecLaw (they agree on real clouds), RefIsSpec (the reference's run is
  the reference arrangement), FiniteInputs (the precondition makes the clouds real), Pieces / Scan / Result /
  KernelRun (what the kernel's run leaves, as the body's arithmetic composed over the grid), PayAt / Tiles /
  Values (that arithmetic read entry by entry is the tiled arrangement), Claims (the five claims).
-/
import proofs.«152558_g26491358282344_cont_9to1_1100_13_alg».proof.Defs
import proofs.«152558_g26491358282344_cont_9to1_1100_13_alg».proof.Proof.Gen.Kernel
import proofs.«152558_g26491358282344_cont_9to1_1100_13_alg».proof.Proof.Gen.KernelIdeal
import proofs.«152558_g26491358282344_cont_9to1_1100_13_alg».proof.Proof.Gen.ReferenceIdeal
import proofs.«152558_g26491358282344_cont_9to1_1100_13_alg».proof.Proof.Gen.Pre_finite_inputs
import proofs.«152558_g26491358282344_cont_9to1_1100_13_alg».proof.Proof.Claims

noncomputable section

namespace Cert.Proof

theorem claim : Cert.Claim :=
  ⟨Cert.Kernel.Gen.facts, Cert.KernelIdeal.Gen.facts, Cert.ReferenceIdeal.Gen.facts, Cert.Pre_finite_inputs.Gen.facts,
    Claims.frame_p, Claims.frame_pi, Claims.frame_ri, Claims.preserves, Claims.algebraic⟩

end Cert.Proof

end
